-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x2400 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32
  ∧ IdealRules.sign_bit.Statement Cert.KernelIdeal.S128x160 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2400x1 : Shape := ⟨3, ![1024, 2400, 1]⟩
abbrev S1024x15x16 : Shape := ⟨3, ![1024, 15, 16]⟩
abbrev S_ : Shape := ⟨0, ![]⟩

class Facts : Prop where
  bcast_S_S1024x2400x1 : S_.BroadcastsInDim S1024x2400x1 (![] : Fin 0 → Fin S1024x2400x1.rank)
  reducesTo_S1024x2400x1_S_d0_1_2 : S1024x2400x1.ReducesTo [0, 1, 2] S_
  h_S_ : 0 < S_.numel
  bcast_S_S1024x15x16 : S_.BroadcastsInDim S1024x15x16 (![] : Fin 0 → Fin S1024x15x16.rank)
  reducesTo_S1024x15x16_S_d0_1_2 : S1024x15x16.ReducesTo [0, 1, 2] S_

variable [Facts]

def fn {F : FTy → Type} [FloatOps F] (main_arg0 : FVec F S1024x2400x1 .f32) (main_arg1 : FVec F S1024x15x16 .f32) : IVec S_ 1 :=
  let main_v0 : FVec F S1024x2400x1 .f32 := Host.absf main_arg0
  let main_cst : FVec F S_ .f32 := constant S_ .f32 0x7F800000#32
  let main_v1 : FVec F S1024x2400x1 .f32 := broadcastInDim S1024x2400x1 ![] bcast_S_S1024x2400x1 main_cst
  let main_v2 : IVec S1024x2400x1 1 := cmpf .olt main_v0 main_v1
  let main_c : IVec S_ 1 := constantI S_ 1 1#1
  let main_v3 : IVec S_ 1 := (fun x v => Host.reduce IntOp.andi x v reducesTo_S1024x2400x1_S_d0_1_2 h_S_) main_v2 main_c
  let main_v4 : FVec F S1024x15x16 .f32 := Host.absf main_arg1
  let main_cst_0 : FVec F S_ .f32 := constant S_ .f32 0x7F800000#32
  let main_v5 : FVec F S1024x15x16 .f32 := broadcastInDim S1024x15x16 ![] bcast_S_S1024x15x16 main_cst_0
  let main_v6 : IVec S1024x15x16 1 := cmpf .olt main_v4 main_v5
  let main_c_1 : IVec S_ 1 := constantI S_ 1 1#1
  let main_v7 : IVec S_ 1 := (fun x v => Host.reduce IntOp.andi x v reducesTo_S1024x15x16_S_d0_1_2 h_S_) main_v6 main_c_1
  let main_v8 : IVec S_ 1 := andi main_v3 main_v7
  main_v8
-- ==== Kernel.lean ====
abbrev S1024x2400x1 : Shape := ⟨3, ![1024, 2400, 1]⟩
abbrev S1024x15x16 : Shape := ⟨3, ![1024, 15, 16]⟩
abbrev S1024x2400 : Shape := ⟨2, ![1024, 2400]⟩
abbrev S128x2400 : Shape := ⟨2, ![128, 2400]⟩
abbrev S128x15x16 : Shape := ⟨3, ![128, 15, 16]⟩
abbrev S128x16 : Shape := ⟨2, ![128, 16]⟩
abbrev S128x2416 : Shape := ⟨2, ![128, 2416]⟩
abbrev S128x160 : Shape := ⟨2, ![128, 160]⟩
abbrev S128x1x1 : Shape := ⟨3, ![128, 1, 1]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x2400x1, .f32⟩
  | .hbm, ⟨1, _⟩ => ⟨S1024x15x16, .f32⟩
  | .hbm, ⟨2, _⟩ => ⟨S1024x2400, .f32⟩
  | .hbm, ⟨3, _⟩ => ⟨S1024x2400, .f32⟩
  | .hbm, ⟨4, _⟩ => ⟨S1024x2400x1, .f32⟩
  | .local _ .vmem, ⟨0, _⟩ => ⟨S128x2400, .f32⟩
  | .local _ .vmem, ⟨1, _⟩ => ⟨S128x2400, .f32⟩
  | .local _ .vmem, ⟨2, _⟩ => ⟨S128x15x16, .f32⟩
  | .local _ .vmem, ⟨3, _⟩ => ⟨S128x15x16, .f32⟩
  | .local _ .vmem, ⟨4, _⟩ => ⟨S128x2400, .f32⟩
  | .local _ .vmem, ⟨5, _⟩ => ⟨S128x2400, .f32⟩
  | _, _ => ⟨S1024x2400x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x15x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024x2400x1_S1024x2400 : S1024x2400x1.ShapeCasts S1024x2400
  inb_S128x2400_S128x2400_0_0 : ∀ a, (![0, 0] : Fin 2 → Nat) a + S128x2400.size a ≤ S128x2400.size a
  h_S128x2400 : 0 < S128x2400.numel
  shapeCasts_S128x2400_S128x2400 : S128x2400.ShapeCasts S128x2400
  inb_S128x15x16_S128x15x16_0_0_0 : ∀ a, (![0, 0, 0] : Fin 3 → Nat) a + S128x15x16.size a ≤ S128x15x16.size a
  h_S128x15x16 : 0 < S128x15x16.numel
  concatenates_S128x16_S128x2400_S128x2416_d1 : Shape.Concatenates [S128x16, S128x2400] S128x2416 1
  slices_S128x2416_o0_16_S128x160 : S128x2416.Slices ![0, 16] S128x160
  slices_S128x15x16_o0_0_0_S128x1x1 : S128x15x16.Slices ![0, 0, 0] S128x1x1
  shapeCasts_S128x1x1_S128x1 : S128x1x1.ShapeCasts S128x1
  broadcasts_S128x1_S128x160 : S128x1.Broadcasts S128x160
  slices_S128x2416_o0_15_S128x160 : S128x2416.Slices ![0, 15] S128x160
  slices_S128x15x16_o0_0_1_S128x1x1 : S128x15x16.Slices ![0, 0, 1] S128x1x1
  slices_S128x2416_o0_14_S128x160 : S128x2416.Slices ![0, 14] S128x160
  slices_S128x15x16_o0_0_2_S128x1x1 : S128x15x16.Slices ![0, 0, 2] S128x1x1
  slices_S128x2416_o0_13_S128x160 : S128x2416.Slices ![0, 13] S128x160
  slices_S128x15x16_o0_0_3_S128x1x1 : S128x15x16.Slices ![0, 0, 3] S128x1x1
  slices_S128x2416_o0_12_S128x160 : S128x2416.Slices ![0, 12] S128x160
  slices_S128x15x16_o0_0_4_S128x1x1 : S128x15x16.Slices ![0, 0, 4] S128x1x1
  slices_S128x2416_o0_11_S128x160 : S128x2416.Slices ![0, 11] S128x160
  slices_S128x15x16_o0_0_5_S128x1x1 : S128x15x16.Slices ![0, 0, 5] S128x1x1
  slices_S128x2416_o0_10_S128x160 : S128x2416.Slices ![0, 10] S128x160
  slices_S128x15x16_o0_0_6_S128x1x1 : S128x15x16.Slices ![0, 0, 6] S128x1x1
  slices_S128x2416_o0_9_S128x160 : S128x2416.Slices ![0, 9] S128x160
  slices_S128x15x16_o0_0_7_S128x1x1 : S128x15x16.Slices ![0, 0, 7] S128x1x1
  slices_S128x2416_o0_8_S128x160 : S128x2416.Slices ![0, 8] S128x160
  slices_S128x15x16_o0_0_8_S128x1x1 : S128x15x16.Slices ![0, 0, 8] S128x1x1
  slices_S128x2416_o0_7_S128x160 : S128x2416.Slices ![0, 7] S128x160
  slices_S128x15x16_o0_0_9_S128x1x1 : S128x15x16.Slices ![0, 0, 9] S128x1x1
  slices_S128x2416_o0_6_S128x160 : S128x2416.Slices ![0, 6] S128x160
  slices_S128x15x16_o0_0_10_S128x1x1 : S128x15x16.Slices ![0, 0, 10] S128x1x1
  slices_S128x2416_o0_5_S128x160 : S128x2416.Slices ![0, 5] S128x160
  slices_S128x15x16_o0_0_11_S128x1x1 : S128x15x16.Slices ![0, 0, 11] S128x1x1
  slices_S128x2416_o0_4_S128x160 : S128x2416.Slices ![0, 4] S128x160
  slices_S128x15x16_o0_0_12_S128x1x1 : S128x15x16.Slices ![0, 0, 12] S128x1x1
  slices_S128x2416_o0_3_S128x160 : S128x2416.Slices ![0, 3] S128x160
  slices_S128x15x16_o0_0_13_S128x1x1 : S128x15x16.Slices ![0, 0, 13] S128x1x1
  slices_S128x2416_o0_2_S128x160 : S128x2416.Slices ![0, 2] S128x160
  slices_S128x15x16_o0_0_14_S128x1x1 : S128x15x16.Slices ![0, 0, 14] S128x1x1
  slices_S128x2416_o0_1_S128x160 : S128x2416.Slices ![0, 1] S128x160
  slices_S128x15x16_o0_0_15_S128x1x1 : S128x15x16.Slices ![0, 0, 15] S128x1x1
  inb_S128x2400_S128x160_0_0 : ∀ a, (![0, 0] : Fin 2 → Nat) a + S128x160.size a ≤ S128x2400.size a
  h_S128x160 : 0 < S128x160.numel
  slices_S128x2416_o0_176_S128x160 : S128x2416.Slices ![0, 176] S128x160
  slices_S128x15x16_o0_1_0_S128x1x1 : S128x15x16.Slices ![0, 1, 0] S128x1x1
  slices_S128x2416_o0_175_S128x160 : S128x2416.Slices ![0, 175] S128x160
  slices_S128x15x16_o0_1_1_S128x1x1 : S128x15x16.Slices ![0, 1, 1] S128x1x1
  slices_S128x2416_o0_174_S128x160 : S128x2416.Slices ![0, 174] S128x160
  slices_S128x15x16_o0_1_2_S128x1x1 : S128x15x16.Slices ![0, 1, 2] S128x1x1
  slices_S128x2416_o0_173_S128x160 : S128x2416.Slices ![0, 173] S128x160
  slices_S128x15x16_o0_1_3_S128x1x1 : S128x15x16.Slices ![0, 1, 3] S128x1x1
  slices_S128x2416_o0_172_S128x160 : S128x2416.Slices ![0, 172] S128x160
  slices_S128x15x16_o0_1_4_S128x1x1 : S128x15x16.Slices ![0, 1, 4] S128x1x1
  slices_S128x2416_o0_171_S128x160 : S128x2416.Slices ![0, 171] S128x160
  slices_S128x15x16_o0_1_5_S128x1x1 : S128x15x16.Slices ![0, 1, 5] S128x1x1
  slices_S128x2416_o0_170_S128x160 : S128x2416.Slices ![0, 170] S128x160
  slices_S128x15x16_o0_1_6_S128x1x1 : S128x15x16.Slices ![0, 1, 6] S128x1x1
  slices_S128x2416_o0_169_S128x160 : S128x2416.Slices ![0, 169] S128x160
  slices_S128x15x16_o0_1_7_S128x1x1 : S128x15x16.Slices ![0, 1, 7] S128x1x1
  slices_S128x2416_o0_168_S128x160 : S128x2416.Slices ![0, 168] S128x160
  slices_S128x15x16_o0_1_8_S128x1x1 : S128x15x16.Slices ![0, 1, 8] S128x1x1
  slices_S128x2416_o0_167_S128x160 : S128x2416.Slices ![0, 167] S128x160
  slices_S128x15x16_o0_1_9_S128x1x1 : S128x15x16.Slices ![0, 1, 9] S128x1x1
  slices_S128x2416_o0_166_S128x160 : S128x2416.Slices ![0, 166] S128x160
  slices_S128x15x16_o0_1_10_S128x1x1 : S128x15x16.Slices ![0, 1, 10] S128x1x1
  slices_S128x2416_o0_165_S128x160 : S128x2416.Slices ![0, 165] S128x160
  slices_S128x15x16_o0_1_11_S128x1x1 : S128x15x16.Slices ![0, 1, 11] S128x1x1
  slices_S128x2416_o0_164_S128x160 : S128x2416.Slices ![0, 164] S128x160
  slices_S128x15x16_o0_1_12_S128x1x1 : S128x15x16.Slices ![0, 1, 12] S128x1x1
  slices_S128x2416_o0_163_S128x160 : S128x2416.Slices ![0, 163] S128x160
  slices_S128x15x16_o0_1_13_S128x1x1 : S128x15x16.Slices ![0, 1, 13] S128x1x1
  slices_S128x2416_o0_162_S128x160 : S128x2416.Slices ![0, 162] S128x160
  slices_S128x15x16_o0_1_14_S128x1x1 : S128x15x16.Slices ![0, 1, 14] S128x1x1
  slices_S128x2416_o0_161_S128x160 : S128x2416.Slices ![0, 161] S128x160
  slices_S128x15x16_o0_1_15_S128x1x1 : S128x15x16.Slices ![0, 1, 15] S128x1x1
  inb_S128x2400_S128x160_0_160 : ∀ a, (![0, 160] : Fin 2 → Nat) a + S128x160.size a ≤ S128x2400.size a
  slices_S128x2416_o0_336_S128x160 : S128x2416.Slices ![0, 336] S128x160
  slices_S128x15x16_o0_2_0_S128x1x1 : S128x15x16.Slices ![0, 2, 0] S128x1x1
  slices_S128x2416_o0_335_S128x160 : S128x2416.Slices ![0, 335] S128x160
  slices_S128x15x16_o0_2_1_S128x1x1 : S128x15x16.Slices ![0, 2, 1] S128x1x1
  slices_S128x2416_o0_334_S128x160 : S128x2416.Slices ![0, 334] S128x160
  slices_S128x15x16_o0_2_2_S128x1x1 : S128x15x16.Slices ![0, 2, 2] S128x1x1
  slices_S128x2416_o0_333_S128x160 : S128x2416.Slices ![0, 333] S128x160
  slices_S128x15x16_o0_2_3_S128x1x1 : S128x15x16.Slices ![0, 2, 3] S128x1x1
  slices_S128x2416_o0_332_S128x160 : S128x2416.Slices ![0, 332] S128x160
  slices_S128x15x16_o0_2_4_S128x1x1 : S128x15x16.Slices ![0, 2, 4] S128x1x1
  slices_S128x2416_o0_331_S128x160 : S128x2416.Slices ![0, 331] S128x160
  slices_S128x15x16_o0_2_5_S128x1x1 : S128x15x16.Slices ![0, 2, 5] S128x1x1
  slices_S128x2416_o0_330_S128x160 : S128x2416.Slices ![0, 330] S128x160
  slices_S128x15x16_o0_2_6_S128x1x1 : S128x15x16.Slices ![0, 2, 6] S128x1x1
  slices_S128x2416_o0_329_S128x160 : S128x2416.Slices ![0, 329] S128x160
  slices_S128x15x16_o0_2_7_S128x1x1 : S128x15x16.Slices ![0, 2, 7] S128x1x1
  slices_S128x2416_o0_328_S128x160 : S128x2416.Slices ![0, 328] S128x160
  slices_S128x15x16_o0_2_8_S128x1x1 : S128x15x16.Slices ![0, 2, 8] S128x1x1
  slices_S128x2416_o0_327_S128x160 : S128x2416.Slices ![0, 327] S128x160
  slices_S128x15x16_o0_2_9_S128x1x1 : S128x15x16.Slices ![0, 2, 9] S128x1x1
  slices_S128x2416_o0_326_S128x160 : S128x2416.Slices ![0, 326] S128x160
  slices_S128x15x16_o0_2_10_S128x1x1 : S128x15x16.Slices ![0, 2, 10] S128x1x1
  slices_S128x2416_o0_325_S128x160 : S128x2416.Slices ![0, 325] S128x160
  slices_S128x15x16_o0_2_11_S128x1x1 : S128x15x16.Slices ![0, 2, 11] S128x1x1
  slices_S128x2416_o0_324_S128x160 : S128x2416.Slices ![0, 324] S128x160
  slices_S128x15x16_o0_2_12_S128x1x1 : S128x15x16.Slices ![0, 2, 12] S128x1x1
  slices_S128x2416_o0_323_S128x160 : S128x2416.Slices ![0, 323] S128x160
  slices_S128x15x16_o0_2_13_S128x1x1 : S128x15x16.Slices ![0, 2, 13] S128x1x1
  slices_S128x2416_o0_322_S128x160 : S128x2416.Slices ![0, 322] S128x160
  slices_S128x15x16_o0_2_14_S128x1x1 : S128x15x16.Slices ![0, 2, 14] S128x1x1
  slices_S128x2416_o0_321_S128x160 : S128x2416.Slices ![0, 321] S128x160
  slices_S128x15x16_o0_2_15_S128x1x1 : S128x15x16.Slices ![0, 2, 15] S128x1x1
  inb_S128x2400_S128x160_0_320 : ∀ a, (![0, 320] : Fin 2 → Nat) a + S128x160.size a ≤ S128x2400.size a
  slices_S128x2416_o0_496_S128x160 : S128x2416.Slices ![0, 496] S128x160
  slices_S128x15x16_o0_3_0_S128x1x1 : S128x15x16.Slices ![0, 3, 0] S128x1x1
  slices_S128x2416_o0_495_S128x160 : S128x2416.Slices ![0, 495] S128x160
  slices_S128x15x16_o0_3_1_S128x1x1 : S128x15x16.Slices ![0, 3, 1] S128x1x1
  slices_S128x2416_o0_494_S128x160 : S128x2416.Slices ![0, 494] S128x160
  slices_S128x15x16_o0_3_2_S128x1x1 : S128x15x16.Slices ![0, 3, 2] S128x1x1
  slices_S128x2416_o0_493_S128x160 : S128x2416.Slices ![0, 493] S128x160
  slices_S128x15x16_o0_3_3_S128x1x1 : S128x15x16.Slices ![0, 3, 3] S128x1x1
  slices_S128x2416_o0_492_S128x160 : S128x2416.Slices ![0, 492] S128x160
  slices_S128x15x16_o0_3_4_S128x1x1 : S128x15x16.Slices ![0, 3, 4] S128x1x1
  slices_S128x2416_o0_491_S128x160 : S128x2416.Slices ![0, 491] S128x160
  slices_S128x15x16_o0_3_5_S128x1x1 : S128x15x16.Slices ![0, 3, 5] S128x1x1
  slices_S128x2416_o0_490_S128x160 : S128x2416.Slices ![0, 490] S128x160
  slices_S128x15x16_o0_3_6_S128x1x1 : S128x15x16.Slices ![0, 3, 6] S128x1x1
  slices_S128x2416_o0_489_S128x160 : S128x2416.Slices ![0, 489] S128x160
  slices_S128x15x16_o0_3_7_S128x1x1 : S128x15x16.Slices ![0, 3, 7] S128x1x1
  slices_S128x2416_o0_488_S128x160 : S128x2416.Slices ![0, 488] S128x160
  slices_S128x15x16_o0_3_8_S128x1x1 : S128x15x16.Slices ![0, 3, 8] S128x1x1
  slices_S128x2416_o0_487_S128x160 : S128x2416.Slices ![0, 487] S128x160
  slices_S128x15x16_o0_3_9_S128x1x1 : S128x15x16.Slices ![0, 3, 9] S128x1x1
  slices_S128x2416_o0_486_S128x160 : S128x2416.Slices ![0, 486] S128x160
  slices_S128x15x16_o0_3_10_S128x1x1 : S128x15x16.Slices ![0, 3, 10] S128x1x1
  slices_S128x2416_o0_485_S128x160 : S128x2416.Slices ![0, 485] S128x160
  slices_S128x15x16_o0_3_11_S128x1x1 : S128x15x16.Slices ![0, 3, 11] S128x1x1
  slices_S128x2416_o0_484_S128x160 : S128x2416.Slices ![0, 484] S128x160
  slices_S128x15x16_o0_3_12_S128x1x1 : S128x15x16.Slices ![0, 3, 12] S128x1x1
  slices_S128x2416_o0_483_S128x160 : S128x2416.Slices ![0, 483] S128x160
  slices_S128x15x16_o0_3_13_S128x1x1 : S128x15x16.Slices ![0, 3, 13] S128x1x1
  slices_S128x2416_o0_482_S128x160 : S128x2416.Slices ![0, 482] S128x160
  slices_S128x15x16_o0_3_14_S128x1x1 : S128x15x16.Slices ![0, 3, 14] S128x1x1
  slices_S128x2416_o0_481_S128x160 : S128x2416.Slices ![0, 481] S128x160
  slices_S128x15x16_o0_3_15_S128x1x1 : S128x15x16.Slices ![0, 3, 15] S128x1x1
  inb_S128x2400_S128x160_0_480 : ∀ a, (![0, 480] : Fin 2 → Nat) a + S128x160.size a ≤ S128x2400.size a
  slices_S128x2416_o0_656_S128x160 : S128x2416.Slices ![0, 656] S128x160
  slices_S128x15x16_o0_4_0_S128x1x1 : S128x15x16.Slices ![0, 4, 0] S128x1x1
  slices_S128x2416_o0_655_S128x160 : S128x2416.Slices ![0, 655] S128x160
  slices_S128x15x16_o0_4_1_S128x1x1 : S128x15x16.Slices ![0, 4, 1] S128x1x1
  slices_S128x2416_o0_654_S128x160 : S128x2416.Slices ![0, 654] S128x160
  slices_S128x15x16_o0_4_2_S128x1x1 : S128x15x16.Slices ![0, 4, 2] S128x1x1
  slices_S128x2416_o0_653_S128x160 : S128x2416.Slices ![0, 653] S128x160
  slices_S128x15x16_o0_4_3_S128x1x1 : S128x15x16.Slices ![0, 4, 3] S128x1x1
  slices_S128x2416_o0_652_S128x160 : S128x2416.Slices ![0, 652] S128x160
  slices_S128x15x16_o0_4_4_S128x1x1 : S128x15x16.Slices ![0, 4, 4] S128x1x1
  slices_S128x2416_o0_651_S128x160 : S128x2416.Slices ![0, 651] S128x160
  slices_S128x15x16_o0_4_5_S128x1x1 : S128x15x16.Slices ![0, 4, 5] S128x1x1
  slices_S128x2416_o0_650_S128x160 : S128x2416.Slices ![0, 650] S128x160
  slices_S128x15x16_o0_4_6_S128x1x1 : S128x15x16.Slices ![0, 4, 6] S128x1x1
  slices_S128x2416_o0_649_S128x160 : S128x2416.Slices ![0, 649] S128x160
  slices_S128x15x16_o0_4_7_S128x1x1 : S128x15x16.Slices ![0, 4, 7] S128x1x1
  slices_S128x2416_o0_648_S128x160 : S128x2416.Slices ![0, 648] S128x160
  slices_S128x15x16_o0_4_8_S128x1x1 : S128x15x16.Slices ![0, 4, 8] S128x1x1
  slices_S128x2416_o0_647_S128x160 : S128x2416.Slices ![0, 647] S128x160
  slices_S128x15x16_o0_4_9_S128x1x1 : S128x15x16.Slices ![0, 4, 9] S128x1x1
  slices_S128x2416_o0_646_S128x160 : S128x2416.Slices ![0, 646] S128x160
  slices_S128x15x16_o0_4_10_S128x1x1 : S128x15x16.Slices ![0, 4, 10] S128x1x1
  slices_S128x2416_o0_645_S128x160 : S128x2416.Slices ![0, 645] S128x160
  slices_S128x15x16_o0_4_11_S128x1x1 : S128x15x16.Slices ![0, 4, 11] S128x1x1
  slices_S128x2416_o0_644_S128x160 : S128x2416.Slices ![0, 644] S128x160
  slices_S128x15x16_o0_4_12_S128x1x1 : S128x15x16.Slices ![0, 4, 12] S128x1x1
  slices_S128x2416_o0_643_S128x160 : S128x2416.Slices ![0, 643] S128x160
  slices_S128x15x16_o0_4_13_S128x1x1 : S128x15x16.Slices ![0, 4, 13] S128x1x1
  slices_S128x2416_o0_642_S128x160 : S128x2416.Slices ![0, 642] S128x160
  slices_S128x15x16_o0_4_14_S128x1x1 : S128x15x16.Slices ![0, 4, 14] S128x1x1
  slices_S128x2416_o0_641_S128x160 : S128x2416.Slices ![0, 641] S128x160
  slices_S128x15x16_o0_4_15_S128x1x1 : S128x15x16.Slices ![0, 4, 15] S128x1x1
  inb_S128x2400_S128x160_0_640 : ∀ a, (![0, 640] : Fin 2 → Nat) a + S128x160.size a ≤ S128x2400.size a
  slices_S128x2416_o0_816_S128x160 : S128x2416.Slices ![0, 816] S128x160
  slices_S128x15x16_o0_5_0_S128x1x1 : S128x15x16.Slices ![0, 5, 0] S128x1x1
  slices_S128x2416_o0_815_S128x160 : S128x2416.Slices ![0, 815] S128x160
  slices_S128x15x16_o0_5_1_S128x1x1 : S128x15x16.Slices ![0, 5, 1] S128x1x1
  slices_S128x2416_o0_814_S128x160 : S128x2416.Slices ![0, 814] S128x160
  slices_S128x15x16_o0_5_2_S128x1x1 : S128x15x16.Slices ![0, 5, 2] S128x1x1
  slices_S128x2416_o0_813_S128x160 : S128x2416.Slices ![0, 813] S128x160
  slices_S128x15x16_o0_5_3_S128x1x1 : S128x15x16.Slices ![0, 5, 3] S128x1x1
  slices_S128x2416_o0_812_S128x160 : S128x2416.Slices ![0, 812] S128x160
  slices_S128x15x16_o0_5_4_S128x1x1 : S128x15x16.Slices ![0, 5, 4] S128x1x1
  slices_S128x2416_o0_811_S128x160 : S128x2416.Slices ![0, 811] S128x160
  slices_S128x15x16_o0_5_5_S128x1x1 : S128x15x16.Slices ![0, 5, 5] S128x1x1
  slices_S128x2416_o0_810_S128x160 : S128x2416.Slices ![0, 810] S128x160
  slices_S128x15x16_o0_5_6_S128x1x1 : S128x15x16.Slices ![0, 5, 6] S128x1x1
  slices_S128x2416_o0_809_S128x160 : S128x2416.Slices ![0, 809] S128x160
  slices_S128x15x16_o0_5_7_S128x1x1 : S128x15x16.Slices ![0, 5, 7] S128x1x1
  slices_S128x2416_o0_808_S128x160 : S128x2416.Slices ![0, 808] S128x160
  slices_S128x15x16_o0_5_8_S128x1x1 : S128x15x16.Slices ![0, 5, 8] S128x1x1
  slices_S128x2416_o0_807_S128x160 : S128x2416.Slices ![0, 807] S128x160
  slices_S128x15x16_o0_5_9_S128x1x1 : S128x15x16.Slices ![0, 5, 9] S128x1x1
  slices_S128x2416_o0_806_S128x160 : S128x2416.Slices ![0, 806] S128x160
  slices_S128x15x16_o0_5_10_S128x1x1 : S128x15x16.Slices ![0, 5, 10] S128x1x1
  slices_S128x2416_o0_805_S128x160 : S128x2416.Slices ![0, 805] S128x160
  slices_S128x15x16_o0_5_11_S128x1x1 : S128x15x16.Slices ![0, 5, 11] S128x1x1
  slices_S128x2416_o0_804_S128x160 : S128x2416.Slices ![0, 804] S128x160
  slices_S128x15x16_o0_5_12_S128x1x1 : S128x15x16.Slices ![0, 5, 12] S128x1x1
  slices_S128x2416_o0_803_S128x160 : S128x2416.Slices ![0, 803] S128x160
  slices_S128x15x16_o0_5_13_S128x1x1 : S128x15x16.Slices ![0, 5, 13] S128x1x1
  slices_S128x2416_o0_802_S128x160 : S128x2416.Slices ![0, 802] S128x160
  slices_S128x15x16_o0_5_14_S128x1x1 : S128x15x16.Slices ![0, 5, 14] S128x1x1
  slices_S128x2416_o0_801_S128x160 : S128x2416.Slices ![0, 801] S128x160
  slices_S128x15x16_o0_5_15_S128x1x1 : S128x15x16.Slices ![0, 5, 15] S128x1x1
  inb_S128x2400_S128x160_0_800 : ∀ a, (![0, 800] : Fin 2 → Nat) a + S128x160.size a ≤ S128x2400.size a
  slices_S128x2416_o0_976_S128x160 : S128x2416.Slices ![0, 976] S128x160
  slices_S128x15x16_o0_6_0_S128x1x1 : S128x15x16.Slices ![0, 6, 0] S128x1x1
  slices_S128x2416_o0_975_S128x160 : S128x2416.Slices ![0, 975] S128x160
  slices_S128x15x16_o0_6_1_S128x1x1 : S128x15x16.Slices ![0, 6, 1] S128x1x1
  slices_S128x2416_o0_974_S128x160 : S128x2416.Slices ![0, 974] S128x160
  slices_S128x15x16_o0_6_2_S128x1x1 : S128x15x16.Slices ![0, 6, 2] S128x1x1
  slices_S128x2416_o0_973_S128x160 : S128x2416.Slices ![0, 973] S128x160
  slices_S128x15x16_o0_6_3_S128x1x1 : S128x15x16.Slices ![0, 6, 3] S128x1x1
  slices_S128x2416_o0_972_S128x160 : S128x2416.Slices ![0, 972] S128x160
  slices_S128x15x16_o0_6_4_S128x1x1 : S128x15x16.Slices ![0, 6, 4] S128x1x1
  slices_S128x2416_o0_971_S128x160 : S128x2416.Slices ![0, 971] S128x160
  slices_S128x15x16_o0_6_5_S128x1x1 : S128x15x16.Slices ![0, 6, 5] S128x1x1
  slices_S128x2416_o0_970_S128x160 : S128x2416.Slices ![0, 970] S128x160
  slices_S128x15x16_o0_6_6_S128x1x1 : S128x15x16.Slices ![0, 6, 6] S128x1x1
  slices_S128x2416_o0_969_S128x160 : S128x2416.Slices ![0, 969] S128x160
  slices_S128x15x16_o0_6_7_S128x1x1 : S128x15x16.Slices ![0, 6, 7] S128x1x1
  slices_S128x2416_o0_968_S128x160 : S128x2416.Slices ![0, 968] S128x160
  slices_S128x15x16_o0_6_8_S128x1x1 : S128x15x16.Slices ![0, 6, 8] S128x1x1
  slices_S128x2416_o0_967_S128x160 : S128x2416.Slices ![0, 967] S128x160
  slices_S128x15x16_o0_6_9_S128x1x1 : S128x15x16.Slices ![0, 6, 9] S128x1x1
  slices_S128x2416_o0_966_S128x160 : S128x2416.Slices ![0, 966] S128x160
  slices_S128x15x16_o0_6_10_S128x1x1 : S128x15x16.Slices ![0, 6, 10] S128x1x1
  slices_S128x2416_o0_965_S128x160 : S128x2416.Slices ![0, 965] S128x160
  slices_S128x15x16_o0_6_11_S128x1x1 : S128x15x16.Slices ![0, 6, 11] S128x1x1
  slices_S128x2416_o0_964_S128x160 : S128x2416.Slices ![0, 964] S128x160
  slices_S128x15x16_o0_6_12_S128x1x1 : S128x15x16.Slices ![0, 6, 12] S128x1x1
  slices_S128x2416_o0_963_S128x160 : S128x2416.Slices ![0, 963] S128x160
  slices_S128x15x16_o0_6_13_S128x1x1 : S128x15x16.Slices ![0, 6, 13] S128x1x1
  slices_S128x2416_o0_962_S128x160 : S128x2416.Slices ![0, 962] S128x160
  slices_S128x15x16_o0_6_14_S128x1x1 : S128x15x16.Slices ![0, 6, 14] S128x1x1
  slices_S128x2416_o0_961_S128x160 : S128x2416.Slices ![0, 961] S128x160
  slices_S128x15x16_o0_6_15_S128x1x1 : S128x15x16.Slices ![0, 6, 15] S128x1x1
  inb_S128x2400_S128x160_0_960 : ∀ a, (![0, 960] : Fin 2 → Nat) a + S128x160.size a ≤ S128x2400.size a
  slices_S128x2416_o0_1136_S128x160 : S128x2416.Slices ![0, 1136] S128x160
  slices_S128x15x16_o0_7_0_S128x1x1 : S128x15x16.Slices ![0, 7, 0] S128x1x1
  slices_S128x2416_o0_1135_S128x160 : S128x2416.Slices ![0, 1135] S128x160
  slices_S128x15x16_o0_7_1_S128x1x1 : S128x15x16.Slices ![0, 7, 1] S128x1x1
  slices_S128x2416_o0_1134_S128x160 : S128x2416.Slices ![0, 1134] S128x160
  slices_S128x15x16_o0_7_2_S128x1x1 : S128x15x16.Slices ![0, 7, 2] S128x1x1
  slices_S128x2416_o0_1133_S128x160 : S128x2416.Slices ![0, 1133] S128x160
  slices_S128x15x16_o0_7_3_S128x1x1 : S128x15x16.Slices ![0, 7, 3] S128x1x1
  slices_S128x2416_o0_1132_S128x160 : S128x2416.Slices ![0, 1132] S128x160
  slices_S128x15x16_o0_7_4_S128x1x1 : S128x15x16.Slices ![0, 7, 4] S128x1x1
  slices_S128x2416_o0_1131_S128x160 : S128x2416.Slices ![0, 1131] S128x160
  slices_S128x15x16_o0_7_5_S128x1x1 : S128x15x16.Slices ![0, 7, 5] S128x1x1
  slices_S128x2416_o0_1130_S128x160 : S128x2416.Slices ![0, 1130] S128x160
  slices_S128x15x16_o0_7_6_S128x1x1 : S128x15x16.Slices ![0, 7, 6] S128x1x1
  slices_S128x2416_o0_1129_S128x160 : S128x2416.Slices ![0, 1129] S128x160
  slices_S128x15x16_o0_7_7_S128x1x1 : S128x15x16.Slices ![0, 7, 7] S128x1x1
  slices_S128x2416_o0_1128_S128x160 : S128x2416.Slices ![0, 1128] S128x160
  slices_S128x15x16_o0_7_8_S128x1x1 : S128x15x16.Slices ![0, 7, 8] S128x1x1
  slices_S128x2416_o0_1127_S128x160 : S128x2416.Slices ![0, 1127] S128x160
  slices_S128x15x16_o0_7_9_S128x1x1 : S128x15x16.Slices ![0, 7, 9] S128x1x1
  slices_S128x2416_o0_1126_S128x160 : S128x2416.Slices ![0, 1126] S128x160
  slices_S128x15x16_o0_7_10_S128x1x1 : S128x15x16.Slices ![0, 7, 10] S128x1x1
  slices_S128x2416_o0_1125_S128x160 : S128x2416.Slices ![0, 1125] S128x160
  slices_S128x15x16_o0_7_11_S128x1x1 : S128x15x16.Slices ![0, 7, 11] S128x1x1
  slices_S128x2416_o0_1124_S128x160 : S128x2416.Slices ![0, 1124] S128x160
  slices_S128x15x16_o0_7_12_S128x1x1 : S128x15x16.Slices ![0, 7, 12] S128x1x1
  slices_S128x2416_o0_1123_S128x160 : S128x2416.Slices ![0, 1123] S128x160
  slices_S128x15x16_o0_7_13_S128x1x1 : S128x15x16.Slices ![0, 7, 13] S128x1x1
  slices_S128x2416_o0_1122_S128x160 : S128x2416.Slices ![0, 1122] S128x160
  slices_S128x15x16_o0_7_14_S128x1x1 : S128x15x16.Slices ![0, 7, 14] S128x1x1
  slices_S128x2416_o0_1121_S128x160 : S128x2416.Slices ![0, 1121] S128x160
  slices_S128x15x16_o0_7_15_S128x1x1 : S128x15x16.Slices ![0, 7, 15] S128x1x1
  inb_S128x2400_S128x160_0_1120 : ∀ a, (![0, 1120] : Fin 2 → Nat) a + S128x160.size a ≤ S128x2400.size a
  slices_S128x2416_o0_1296_S128x160 : S128x2416.Slices ![0, 1296] S128x160
  slices_S128x15x16_o0_8_0_S128x1x1 : S128x15x16.Slices ![0, 8, 0] S128x1x1
  slices_S128x2416_o0_1295_S128x160 : S128x2416.Slices ![0, 1295] S128x160
  slices_S128x15x16_o0_8_1_S128x1x1 : S128x15x16.Slices ![0, 8, 1] S128x1x1
  slices_S128x2416_o0_1294_S128x160 : S128x2416.Slices ![0, 1294] S128x160
  slices_S128x15x16_o0_8_2_S128x1x1 : S128x15x16.Slices ![0, 8, 2] S128x1x1
  slices_S128x2416_o0_1293_S128x160 : S128x2416.Slices ![0, 1293] S128x160
  slices_S128x15x16_o0_8_3_S128x1x1 : S128x15x16.Slices ![0, 8, 3] S128x1x1
  slices_S128x2416_o0_1292_S128x160 : S128x2416.Slices ![0, 1292] S128x160
  slices_S128x15x16_o0_8_4_S128x1x1 : S128x15x16.Slices ![0, 8, 4] S128x1x1
  slices_S128x2416_o0_1291_S128x160 : S128x2416.Slices ![0, 1291] S128x160
  slices_S128x15x16_o0_8_5_S128x1x1 : S128x15x16.Slices ![0, 8, 5] S128x1x1
  slices_S128x2416_o0_1290_S128x160 : S128x2416.Slices ![0, 1290] S128x160
  slices_S128x15x16_o0_8_6_S128x1x1 : S128x15x16.Slices ![0, 8, 6] S128x1x1
  slices_S128x2416_o0_1289_S128x160 : S128x2416.Slices ![0, 1289] S128x160
  slices_S128x15x16_o0_8_7_S128x1x1 : S128x15x16.Slices ![0, 8, 7] S128x1x1
  slices_S128x2416_o0_1288_S128x160 : S128x2416.Slices ![0, 1288] S128x160
  slices_S128x15x16_o0_8_8_S128x1x1 : S128x15x16.Slices ![0, 8, 8] S128x1x1
  slices_S128x2416_o0_1287_S128x160 : S128x2416.Slices ![0, 1287] S128x160
  slices_S128x15x16_o0_8_9_S128x1x1 : S128x15x16.Slices ![0, 8, 9] S128x1x1
  slices_S128x2416_o0_1286_S128x160 : S128x2416.Slices ![0, 1286] S128x160
  slices_S128x15x16_o0_8_10_S128x1x1 : S128x15x16.Slices ![0, 8, 10] S128x1x1
  slices_S128x2416_o0_1285_S128x160 : S128x2416.Slices ![0, 1285] S128x160
  slices_S128x15x16_o0_8_11_S128x1x1 : S128x15x16.Slices ![0, 8, 11] S128x1x1
  slices_S128x2416_o0_1284_S128x160 : S128x2416.Slices ![0, 1284] S128x160
  slices_S128x15x16_o0_8_12_S128x1x1 : S128x15x16.Slices ![0, 8, 12] S128x1x1
  slices_S128x2416_o0_1283_S128x160 : S128x2416.Slices ![0, 1283] S128x160
  slices_S128x15x16_o0_8_13_S128x1x1 : S128x15x16.Slices ![0, 8, 13] S128x1x1
  slices_S128x2416_o0_1282_S128x160 : S128x2416.Slices ![0, 1282] S128x160
  slices_S128x15x16_o0_8_14_S128x1x1 : S128x15x16.Slices ![0, 8, 14] S128x1x1
  slices_S128x2416_o0_1281_S128x160 : S128x2416.Slices ![0, 1281] S128x160
  slices_S128x15x16_o0_8_15_S128x1x1 : S128x15x16.Slices ![0, 8, 15] S128x1x1
  inb_S128x2400_S128x160_0_1280 : ∀ a, (![0, 1280] : Fin 2 → Nat) a + S128x160.size a ≤ S128x2400.size a
  slices_S128x2416_o0_1456_S128x160 : S128x2416.Slices ![0, 1456] S128x160
  slices_S128x15x16_o0_9_0_S128x1x1 : S128x15x16.Slices ![0, 9, 0] S128x1x1
  slices_S128x2416_o0_1455_S128x160 : S128x2416.Slices ![0, 1455] S128x160
  slices_S128x15x16_o0_9_1_S128x1x1 : S128x15x16.Slices ![0, 9, 1] S128x1x1
  slices_S128x2416_o0_1454_S128x160 : S128x2416.Slices ![0, 1454] S128x160
  slices_S128x15x16_o0_9_2_S128x1x1 : S128x15x16.Slices ![0, 9, 2] S128x1x1
  slices_S128x2416_o0_1453_S128x160 : S128x2416.Slices ![0, 1453] S128x160
  slices_S128x15x16_o0_9_3_S128x1x1 : S128x15x16.Slices ![0, 9, 3] S128x1x1
  slices_S128x2416_o0_1452_S128x160 : S128x2416.Slices ![0, 1452] S128x160
  slices_S128x15x16_o0_9_4_S128x1x1 : S128x15x16.Slices ![0, 9, 4] S128x1x1
  slices_S128x2416_o0_1451_S128x160 : S128x2416.Slices ![0, 1451] S128x160
  slices_S128x15x16_o0_9_5_S128x1x1 : S128x15x16.Slices ![0, 9, 5] S128x1x1
  slices_S128x2416_o0_1450_S128x160 : S128x2416.Slices ![0, 1450] S128x160
  slices_S128x15x16_o0_9_6_S128x1x1 : S128x15x16.Slices ![0, 9, 6] S128x1x1
  slices_S128x2416_o0_1449_S128x160 : S128x2416.Slices ![0, 1449] S128x160
  slices_S128x15x16_o0_9_7_S128x1x1 : S128x15x16.Slices ![0, 9, 7] S128x1x1
  slices_S128x2416_o0_1448_S128x160 : S128x2416.Slices ![0, 1448] S128x160
  slices_S128x15x16_o0_9_8_S128x1x1 : S128x15x16.Slices ![0, 9, 8] S128x1x1
  slices_S128x2416_o0_1447_S128x160 : S128x2416.Slices ![0, 1447] S128x160
  slices_S128x15x16_o0_9_9_S128x1x1 : S128x15x16.Slices ![0, 9, 9] S128x1x1
  slices_S128x2416_o0_1446_S128x160 : S128x2416.Slices ![0, 1446] S128x160
  slices_S128x15x16_o0_9_10_S128x1x1 : S128x15x16.Slices ![0, 9, 10] S128x1x1
  slices_S128x2416_o0_1445_S128x160 : S128x2416.Slices ![0, 1445] S128x160
  slices_S128x15x16_o0_9_11_S128x1x1 : S128x15x16.Slices ![0, 9, 11] S128x1x1
  slices_S128x2416_o0_1444_S128x160 : S128x2416.Slices ![0, 1444] S128x160
  slices_S128x15x16_o0_9_12_S128x1x1 : S128x15x16.Slices ![0, 9, 12] S128x1x1
  slices_S128x2416_o0_1443_S128x160 : S128x2416.Slices ![0, 1443] S128x160
  slices_S128x15x16_o0_9_13_S128x1x1 : S128x15x16.Slices ![0, 9, 13] S128x1x1
  slices_S128x2416_o0_1442_S128x160 : S128x2416.Slices ![0, 1442] S128x160
  slices_S128x15x16_o0_9_14_S128x1x1 : S128x15x16.Slices ![0, 9, 14] S128x1x1
  slices_S128x2416_o0_1441_S128x160 : S128x2416.Slices ![0, 1441] S128x160
  slices_S128x15x16_o0_9_15_S128x1x1 : S128x15x16.Slices ![0, 9, 15] S128x1x1
  inb_S128x2400_S128x160_0_1440 : ∀ a, (![0, 1440] : Fin 2 → Nat) a + S128x160.size a ≤ S128x2400.size a
  slices_S128x2416_o0_1616_S128x160 : S128x2416.Slices ![0, 1616] S128x160
  slices_S128x15x16_o0_10_0_S128x1x1 : S128x15x16.Slices ![0, 10, 0] S128x1x1
  slices_S128x2416_o0_1615_S128x160 : S128x2416.Slices ![0, 1615] S128x160
  slices_S128x15x16_o0_10_1_S128x1x1 : S128x15x16.Slices ![0, 10, 1] S128x1x1
  slices_S128x2416_o0_1614_S128x160 : S128x2416.Slices ![0, 1614] S128x160
  slices_S128x15x16_o0_10_2_S128x1x1 : S128x15x16.Slices ![0, 10, 2] S128x1x1
  slices_S128x2416_o0_1613_S128x160 : S128x2416.Slices ![0, 1613] S128x160
  slices_S128x15x16_o0_10_3_S128x1x1 : S128x15x16.Slices ![0, 10, 3] S128x1x1
  slices_S128x2416_o0_1612_S128x160 : S128x2416.Slices ![0, 1612] S128x160
  slices_S128x15x16_o0_10_4_S128x1x1 : S128x15x16.Slices ![0, 10, 4] S128x1x1
  slices_S128x2416_o0_1611_S128x160 : S128x2416.Slices ![0, 1611] S128x160
  slices_S128x15x16_o0_10_5_S128x1x1 : S128x15x16.Slices ![0, 10, 5] S128x1x1
  slices_S128x2416_o0_1610_S128x160 : S128x2416.Slices ![0, 1610] S128x160
  slices_S128x15x16_o0_10_6_S128x1x1 : S128x15x16.Slices ![0, 10, 6] S128x1x1
  slices_S128x2416_o0_1609_S128x160 : S128x2416.Slices ![0, 1609] S128x160
  slices_S128x15x16_o0_10_7_S128x1x1 : S128x15x16.Slices ![0, 10, 7] S128x1x1
  slices_S128x2416_o0_1608_S128x160 : S128x2416.Slices ![0, 1608] S128x160
  slices_S128x15x16_o0_10_8_S128x1x1 : S128x15x16.Slices ![0, 10, 8] S128x1x1
  slices_S128x2416_o0_1607_S128x160 : S128x2416.Slices ![0, 1607] S128x160
  slices_S128x15x16_o0_10_9_S128x1x1 : S128x15x16.Slices ![0, 10, 9] S128x1x1
  slices_S128x2416_o0_1606_S128x160 : S128x2416.Slices ![0, 1606] S128x160
  slices_S128x15x16_o0_10_10_S128x1x1 : S128x15x16.Slices ![0, 10, 10] S128x1x1
  slices_S128x2416_o0_1605_S128x160 : S128x2416.Slices ![0, 1605] S128x160
  slices_S128x15x16_o0_10_11_S128x1x1 : S128x15x16.Slices ![0, 10, 11] S128x1x1
  slices_S128x2416_o0_1604_S128x160 : S128x2416.Slices ![0, 1604] S128x160
  slices_S128x15x16_o0_10_12_S128x1x1 : S128x15x16.Slices ![0, 10, 12] S128x1x1
  slices_S128x2416_o0_1603_S128x160 : S128x2416.Slices ![0, 1603] S128x160
  slices_S128x15x16_o0_10_13_S128x1x1 : S128x15x16.Slices ![0, 10, 13] S128x1x1
  slices_S128x2416_o0_1602_S128x160 : S128x2416.Slices ![0, 1602] S128x160
  slices_S128x15x16_o0_10_14_S128x1x1 : S128x15x16.Slices ![0, 10, 14] S128x1x1
  slices_S128x2416_o0_1601_S128x160 : S128x2416.Slices ![0, 1601] S128x160
  slices_S128x15x16_o0_10_15_S128x1x1 : S128x15x16.Slices ![0, 10, 15] S128x1x1
  inb_S128x2400_S128x160_0_1600 : ∀ a, (![0, 1600] : Fin 2 → Nat) a + S128x160.size a ≤ S128x2400.size a
  slices_S128x2416_o0_1776_S128x160 : S128x2416.Slices ![0, 1776] S128x160
  slices_S128x15x16_o0_11_0_S128x1x1 : S128x15x16.Slices ![0, 11, 0] S128x1x1
  slices_S128x2416_o0_1775_S128x160 : S128x2416.Slices ![0, 1775] S128x160
  slices_S128x15x16_o0_11_1_S128x1x1 : S128x15x16.Slices ![0, 11, 1] S128x1x1
  slices_S128x2416_o0_1774_S128x160 : S128x2416.Slices ![0, 1774] S128x160
  slices_S128x15x16_o0_11_2_S128x1x1 : S128x15x16.Slices ![0, 11, 2] S128x1x1
  slices_S128x2416_o0_1773_S128x160 : S128x2416.Slices ![0, 1773] S128x160
  slices_S128x15x16_o0_11_3_S128x1x1 : S128x15x16.Slices ![0, 11, 3] S128x1x1
  slices_S128x2416_o0_1772_S128x160 : S128x2416.Slices ![0, 1772] S128x160
  slices_S128x15x16_o0_11_4_S128x1x1 : S128x15x16.Slices ![0, 11, 4] S128x1x1
  slices_S128x2416_o0_1771_S128x160 : S128x2416.Slices ![0, 1771] S128x160
  slices_S128x15x16_o0_11_5_S128x1x1 : S128x15x16.Slices ![0, 11, 5] S128x1x1
  slices_S128x2416_o0_1770_S128x160 : S128x2416.Slices ![0, 1770] S128x160
  slices_S128x15x16_o0_11_6_S128x1x1 : S128x15x16.Slices ![0, 11, 6] S128x1x1
  slices_S128x2416_o0_1769_S128x160 : S128x2416.Slices ![0, 1769] S128x160
  slices_S128x15x16_o0_11_7_S128x1x1 : S128x15x16.Slices ![0, 11, 7] S128x1x1
  slices_S128x2416_o0_1768_S128x160 : S128x2416.Slices ![0, 1768] S128x160
  slices_S128x15x16_o0_11_8_S128x1x1 : S128x15x16.Slices ![0, 11, 8] S128x1x1
  slices_S128x2416_o0_1767_S128x160 : S128x2416.Slices ![0, 1767] S128x160
  slices_S128x15x16_o0_11_9_S128x1x1 : S128x15x16.Slices ![0, 11, 9] S128x1x1
  slices_S128x2416_o0_1766_S128x160 : S128x2416.Slices ![0, 1766] S128x160
  slices_S128x15x16_o0_11_10_S128x1x1 : S128x15x16.Slices ![0, 11, 10] S128x1x1
  slices_S128x2416_o0_1765_S128x160 : S128x2416.Slices ![0, 1765] S128x160
  slices_S128x15x16_o0_11_11_S128x1x1 : S128x15x16.Slices ![0, 11, 11] S128x1x1
  slices_S128x2416_o0_1764_S128x160 : S128x2416.Slices ![0, 1764] S128x160
  slices_S128x15x16_o0_11_12_S128x1x1 : S128x15x16.Slices ![0, 11, 12] S128x1x1
  slices_S128x2416_o0_1763_S128x160 : S128x2416.Slices ![0, 1763] S128x160
  slices_S128x15x16_o0_11_13_S128x1x1 : S128x15x16.Slices ![0, 11, 13] S128x1x1
  slices_S128x2416_o0_1762_S128x160 : S128x2416.Slices ![0, 1762] S128x160
  slices_S128x15x16_o0_11_14_S128x1x1 : S128x15x16.Slices ![0, 11, 14] S128x1x1
  slices_S128x2416_o0_1761_S128x160 : S128x2416.Slices ![0, 1761] S128x160
  slices_S128x15x16_o0_11_15_S128x1x1 : S128x15x16.Slices ![0, 11, 15] S128x1x1
  inb_S128x2400_S128x160_0_1760 : ∀ a, (![0, 1760] : Fin 2 → Nat) a + S128x160.size a ≤ S128x2400.size a
  slices_S128x2416_o0_1936_S128x160 : S128x2416.Slices ![0, 1936] S128x160
  slices_S128x15x16_o0_12_0_S128x1x1 : S128x15x16.Slices ![0, 12, 0] S128x1x1
  slices_S128x2416_o0_1935_S128x160 : S128x2416.Slices ![0, 1935] S128x160
  slices_S128x15x16_o0_12_1_S128x1x1 : S128x15x16.Slices ![0, 12, 1] S128x1x1
  slices_S128x2416_o0_1934_S128x160 : S128x2416.Slices ![0, 1934] S128x160
  slices_S128x15x16_o0_12_2_S128x1x1 : S128x15x16.Slices ![0, 12, 2] S128x1x1
  slices_S128x2416_o0_1933_S128x160 : S128x2416.Slices ![0, 1933] S128x160
  slices_S128x15x16_o0_12_3_S128x1x1 : S128x15x16.Slices ![0, 12, 3] S128x1x1
  slices_S128x2416_o0_1932_S128x160 : S128x2416.Slices ![0, 1932] S128x160
  slices_S128x15x16_o0_12_4_S128x1x1 : S128x15x16.Slices ![0, 12, 4] S128x1x1
  slices_S128x2416_o0_1931_S128x160 : S128x2416.Slices ![0, 1931] S128x160
  slices_S128x15x16_o0_12_5_S128x1x1 : S128x15x16.Slices ![0, 12, 5] S128x1x1
  slices_S128x2416_o0_1930_S128x160 : S128x2416.Slices ![0, 1930] S128x160
  slices_S128x15x16_o0_12_6_S128x1x1 : S128x15x16.Slices ![0, 12, 6] S128x1x1
  slices_S128x2416_o0_1929_S128x160 : S128x2416.Slices ![0, 1929] S128x160
  slices_S128x15x16_o0_12_7_S128x1x1 : S128x15x16.Slices ![0, 12, 7] S128x1x1
  slices_S128x2416_o0_1928_S128x160 : S128x2416.Slices ![0, 1928] S128x160
  slices_S128x15x16_o0_12_8_S128x1x1 : S128x15x16.Slices ![0, 12, 8] S128x1x1
  slices_S128x2416_o0_1927_S128x160 : S128x2416.Slices ![0, 1927] S128x160
  slices_S128x15x16_o0_12_9_S128x1x1 : S128x15x16.Slices ![0, 12, 9] S128x1x1
  slices_S128x2416_o0_1926_S128x160 : S128x2416.Slices ![0, 1926] S128x160
  slices_S128x15x16_o0_12_10_S128x1x1 : S128x15x16.Slices ![0, 12, 10] S128x1x1
  slices_S128x2416_o0_1925_S128x160 : S128x2416.Slices ![0, 1925] S128x160
  slices_S128x15x16_o0_12_11_S128x1x1 : S128x15x16.Slices ![0, 12, 11] S128x1x1
  slices_S128x2416_o0_1924_S128x160 : S128x2416.Slices ![0, 1924] S128x160
  slices_S128x15x16_o0_12_12_S128x1x1 : S128x15x16.Slices ![0, 12, 12] S128x1x1
  slices_S128x2416_o0_1923_S128x160 : S128x2416.Slices ![0, 1923] S128x160
  slices_S128x15x16_o0_12_13_S128x1x1 : S128x15x16.Slices ![0, 12, 13] S128x1x1
  slices_S128x2416_o0_1922_S128x160 : S128x2416.Slices ![0, 1922] S128x160
  slices_S128x15x16_o0_12_14_S128x1x1 : S128x15x16.Slices ![0, 12, 14] S128x1x1
  slices_S128x2416_o0_1921_S128x160 : S128x2416.Slices ![0, 1921] S128x160
  slices_S128x15x16_o0_12_15_S128x1x1 : S128x15x16.Slices ![0, 12, 15] S128x1x1
  inb_S128x2400_S128x160_0_1920 : ∀ a, (![0, 1920] : Fin 2 → Nat) a + S128x160.size a ≤ S128x2400.size a
  slices_S128x2416_o0_2096_S128x160 : S128x2416.Slices ![0, 2096] S128x160
  slices_S128x15x16_o0_13_0_S128x1x1 : S128x15x16.Slices ![0, 13, 0] S128x1x1
  slices_S128x2416_o0_2095_S128x160 : S128x2416.Slices ![0, 2095] S128x160
  slices_S128x15x16_o0_13_1_S128x1x1 : S128x15x16.Slices ![0, 13, 1] S128x1x1
  slices_S128x2416_o0_2094_S128x160 : S128x2416.Slices ![0, 2094] S128x160
  slices_S128x15x16_o0_13_2_S128x1x1 : S128x15x16.Slices ![0, 13, 2] S128x1x1
  slices_S128x2416_o0_2093_S128x160 : S128x2416.Slices ![0, 2093] S128x160
  slices_S128x15x16_o0_13_3_S128x1x1 : S128x15x16.Slices ![0, 13, 3] S128x1x1
  slices_S128x2416_o0_2092_S128x160 : S128x2416.Slices ![0, 2092] S128x160
  slices_S128x15x16_o0_13_4_S128x1x1 : S128x15x16.Slices ![0, 13, 4] S128x1x1
  slices_S128x2416_o0_2091_S128x160 : S128x2416.Slices ![0, 2091] S128x160
  slices_S128x15x16_o0_13_5_S128x1x1 : S128x15x16.Slices ![0, 13, 5] S128x1x1
  slices_S128x2416_o0_2090_S128x160 : S128x2416.Slices ![0, 2090] S128x160
  slices_S128x15x16_o0_13_6_S128x1x1 : S128x15x16.Slices ![0, 13, 6] S128x1x1
  slices_S128x2416_o0_2089_S128x160 : S128x2416.Slices ![0, 2089] S128x160
  slices_S128x15x16_o0_13_7_S128x1x1 : S128x15x16.Slices ![0, 13, 7] S128x1x1
  slices_S128x2416_o0_2088_S128x160 : S128x2416.Slices ![0, 2088] S128x160
  slices_S128x15x16_o0_13_8_S128x1x1 : S128x15x16.Slices ![0, 13, 8] S128x1x1
  slices_S128x2416_o0_2087_S128x160 : S128x2416.Slices ![0, 2087] S128x160
  slices_S128x15x16_o0_13_9_S128x1x1 : S128x15x16.Slices ![0, 13, 9] S128x1x1
  slices_S128x2416_o0_2086_S128x160 : S128x2416.Slices ![0, 2086] S128x160
  slices_S128x15x16_o0_13_10_S128x1x1 : S128x15x16.Slices ![0, 13, 10] S128x1x1
  slices_S128x2416_o0_2085_S128x160 : S128x2416.Slices ![0, 2085] S128x160
  slices_S128x15x16_o0_13_11_S128x1x1 : S128x15x16.Slices ![0, 13, 11] S128x1x1
  slices_S128x2416_o0_2084_S128x160 : S128x2416.Slices ![0, 2084] S128x160
  slices_S128x15x16_o0_13_12_S128x1x1 : S128x15x16.Slices ![0, 13, 12] S128x1x1
  slices_S128x2416_o0_2083_S128x160 : S128x2416.Slices ![0, 2083] S128x160
  slices_S128x15x16_o0_13_13_S128x1x1 : S128x15x16.Slices ![0, 13, 13] S128x1x1
  slices_S128x2416_o0_2082_S128x160 : S128x2416.Slices ![0, 2082] S128x160
  slices_S128x15x16_o0_13_14_S128x1x1 : S128x15x16.Slices ![0, 13, 14] S128x1x1
  slices_S128x2416_o0_2081_S128x160 : S128x2416.Slices ![0, 2081] S128x160
  slices_S128x15x16_o0_13_15_S128x1x1 : S128x15x16.Slices ![0, 13, 15] S128x1x1
  inb_S128x2400_S128x160_0_2080 : ∀ a, (![0, 2080] : Fin 2 → Nat) a + S128x160.size a ≤ S128x2400.size a
  slices_S128x2416_o0_2256_S128x160 : S128x2416.Slices ![0, 2256] S128x160
  slices_S128x15x16_o0_14_0_S128x1x1 : S128x15x16.Slices ![0, 14, 0] S128x1x1
  slices_S128x2416_o0_2255_S128x160 : S128x2416.Slices ![0, 2255] S128x160
  slices_S128x15x16_o0_14_1_S128x1x1 : S128x15x16.Slices ![0, 14, 1] S128x1x1
  slices_S128x2416_o0_2254_S128x160 : S128x2416.Slices ![0, 2254] S128x160
  slices_S128x15x16_o0_14_2_S128x1x1 : S128x15x16.Slices ![0, 14, 2] S128x1x1
  slices_S128x2416_o0_2253_S128x160 : S128x2416.Slices ![0, 2253] S128x160
  slices_S128x15x16_o0_14_3_S128x1x1 : S128x15x16.Slices ![0, 14, 3] S128x1x1
  slices_S128x2416_o0_2252_S128x160 : S128x2416.Slices ![0, 2252] S128x160
  slices_S128x15x16_o0_14_4_S128x1x1 : S128x15x16.Slices ![0, 14, 4] S128x1x1
  slices_S128x2416_o0_2251_S128x160 : S128x2416.Slices ![0, 2251] S128x160
  slices_S128x15x16_o0_14_5_S128x1x1 : S128x15x16.Slices ![0, 14, 5] S128x1x1
  slices_S128x2416_o0_2250_S128x160 : S128x2416.Slices ![0, 2250] S128x160
  slices_S128x15x16_o0_14_6_S128x1x1 : S128x15x16.Slices ![0, 14, 6] S128x1x1
  slices_S128x2416_o0_2249_S128x160 : S128x2416.Slices ![0, 2249] S128x160
  slices_S128x15x16_o0_14_7_S128x1x1 : S128x15x16.Slices ![0, 14, 7] S128x1x1
  slices_S128x2416_o0_2248_S128x160 : S128x2416.Slices ![0, 2248] S128x160
  slices_S128x15x16_o0_14_8_S128x1x1 : S128x15x16.Slices ![0, 14, 8] S128x1x1
  slices_S128x2416_o0_2247_S128x160 : S128x2416.Slices ![0, 2247] S128x160
  slices_S128x15x16_o0_14_9_S128x1x1 : S128x15x16.Slices ![0, 14, 9] S128x1x1
  slices_S128x2416_o0_2246_S128x160 : S128x2416.Slices ![0, 2246] S128x160
  slices_S128x15x16_o0_14_10_S128x1x1 : S128x15x16.Slices ![0, 14, 10] S128x1x1
  slices_S128x2416_o0_2245_S128x160 : S128x2416.Slices ![0, 2245] S128x160
  slices_S128x15x16_o0_14_11_S128x1x1 : S128x15x16.Slices ![0, 14, 11] S128x1x1
  slices_S128x2416_o0_2244_S128x160 : S128x2416.Slices ![0, 2244] S128x160
  slices_S128x15x16_o0_14_12_S128x1x1 : S128x15x16.Slices ![0, 14, 12] S128x1x1
  slices_S128x2416_o0_2243_S128x160 : S128x2416.Slices ![0, 2243] S128x160
  slices_S128x15x16_o0_14_13_S128x1x1 : S128x15x16.Slices ![0, 14, 13] S128x1x1
  slices_S128x2416_o0_2242_S128x160 : S128x2416.Slices ![0, 2242] S128x160
  slices_S128x15x16_o0_14_14_S128x1x1 : S128x15x16.Slices ![0, 14, 14] S128x1x1
  slices_S128x2416_o0_2241_S128x160 : S128x2416.Slices ![0, 2241] S128x160
  slices_S128x15x16_o0_14_15_S128x1x1 : S128x15x16.Slices ![0, 14, 15] S128x1x1
  inb_S128x2400_S128x160_0_2240 : ∀ a, (![0, 2240] : Fin 2 → Nat) a + S128x160.size a ≤ S128x2400.size a
  bcast_S1024x2400_S1024x2400x1_0_1 : S1024x2400.BroadcastsInDim S1024x2400x1 (![0, 1] : Fin 2 → Fin S1024x2400x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2400.size a ≤ S1024x2400.size a
  hwx0_0 : ∀ i : grid0.Coords, EltTy.bits .f32 = 32 ∨ (Rect.block (s := S1024x2400) S128x2400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x15x16.size a ≤ S1024x15x16.size a
  hwx0_1 : ∀ i : grid0.Coords, EltTy.bits .f32 = 32 ∨ (Rect.block (s := S1024x15x16) S128x15x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2400.size a ≤ S1024x2400.size a
  hwx0_2 : ∀ i : grid0.Coords, EltTy.bits .f32 = 32 ∨ (Rect.block (s := S1024x2400) S128x2400.size (cc0_transform_2 i) (hinb0_2 i)).WholeWords (EltTy.packing .f32)

variable [Facts₀]

abbrev win0_0 : Pipeline.Window sig grid0 :=
  Pipeline.Window.ofSpec (Memref.whole main_v0) S128x2400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x15x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x2400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x2400x1 : Shape := ⟨3, ![1024, 2400, 1]⟩
abbrev S1024x15x16 : Shape := ⟨3, ![1024, 15, 16]⟩
abbrev S_ : Shape := ⟨0, ![]⟩
abbrev S1024x2400 : Shape := ⟨2, ![1024, 2400]⟩
abbrev S1024x2416 : Shape := ⟨2, ![1024, 2416]⟩
abbrev S1024x2400x16 : Shape := ⟨3, ![1024, 2400, 16]⟩
abbrev S1024x15x160x16 : Shape := ⟨4, ![1024, 15, 160, 16]⟩

abbrev nBuf : Space → Nat
  | .hbm => 89
  | .vmem => 0
  | .smem => 0
  | _ => 0

abbrev bufTy : (tb : Table) → Fin (tcTables nBuf tb) → BufTy
  | .hbm, ⟨0, _⟩ => ⟨S1024x2400x1, .f32⟩
  | .hbm, ⟨1, _⟩ => ⟨S1024x15x16, .f32⟩
  | .hbm, ⟨2, _⟩ => ⟨S_, .f32⟩
  | .hbm, ⟨3, _⟩ => ⟨S1024x2400x1, .f32⟩
  | .hbm, ⟨4, _⟩ => ⟨S1024x2400x1, .f32⟩
  | .hbm, ⟨5, _⟩ => ⟨S1024x2400x1, .f32⟩
  | .hbm, ⟨6, _⟩ => ⟨S1024x2400x1, .f32⟩
  | .hbm, ⟨7, _⟩ => ⟨S_, .f32⟩
  | .hbm, ⟨8, _⟩ => ⟨S1024x2400x1, .f32⟩
  | .hbm, ⟨9, _⟩ => ⟨S1024x2400x1, .f32⟩
  | .hbm, ⟨10, _⟩ => ⟨S_, .f32⟩
  | .hbm, ⟨11, _⟩ => ⟨S1024x2400x1, .f32⟩
  | .hbm, ⟨12, _⟩ => ⟨S1024x2400x1, .f32⟩
  | .hbm, ⟨13, _⟩ => ⟨S_, .f32⟩
  | .hbm, ⟨14, _⟩ => ⟨S1024x2400x1, .f32⟩
  | .hbm, ⟨15, _⟩ => ⟨S1024x2400x1, .f32⟩
  | .hbm, ⟨16, _⟩ => ⟨S1024x2400x1, .f32⟩
  | .hbm, ⟨17, _⟩ => ⟨S_, .f32⟩
  | .hbm, ⟨18, _⟩ => ⟨S1024x2400x1, .f32⟩
  | .hbm, ⟨19, _⟩ => ⟨S1024x2400x1, .f32⟩
  | .hbm, ⟨20, _⟩ => ⟨S1024x2400x1, .f32⟩
  | .hbm, ⟨21, _⟩ => ⟨S1024x2400, .f32⟩
  | .hbm, ⟨22, _⟩ => ⟨S_, .i32⟩
  | .hbm, ⟨23, _⟩ => ⟨S_, .f32⟩
  | .hbm, ⟨24, _⟩ => ⟨S1024x2416, .f32⟩
  | .hbm, ⟨25, _⟩ => ⟨S1024x2400, .f32⟩
  | .hbm, ⟨26, _⟩ => ⟨S1024x2400, .f32⟩
  | .hbm, ⟨27, _⟩ => ⟨S1024x2400, .f32⟩
  | .hbm, ⟨28, _⟩ => ⟨S1024x2400, .f32⟩
  | .hbm, ⟨29, _⟩ => ⟨S1024x2400, .f32⟩
  | .hbm, ⟨30, _⟩ => ⟨S1024x2400, .f32⟩
  | .hbm, ⟨31, _⟩ => ⟨S1024x2400, .f32⟩
  | .hbm, ⟨32, _⟩ => ⟨S1024x2400, .f32⟩
  | .hbm, ⟨33, _⟩ => ⟨S1024x2400, .f32⟩
  | .hbm, ⟨34, _⟩ => ⟨S1024x2400, .f32⟩
  | .hbm, ⟨35, _⟩ => ⟨S1024x2400, .f32⟩
  | .hbm, ⟨36, _⟩ => ⟨S1024x2400, .f32⟩
  | .hbm, ⟨37, _⟩ => ⟨S1024x2400, .f32⟩
  | .hbm, ⟨38, _⟩ => ⟨S1024x2400, .f32⟩
  | .hbm, ⟨39, _⟩ => ⟨S1024x2400, .f32⟩
  | .hbm, ⟨40, _⟩ => ⟨S1024x2400, .f32⟩
  | .hbm, ⟨41, _⟩ => ⟨S1024x2400x1, .f32⟩
  | .hbm, ⟨42, _⟩ => ⟨S1024x2400x1, .f32⟩
  | .hbm, ⟨43, _⟩ => ⟨S1024x2400x1, .f32⟩
  | .hbm, ⟨44, _⟩ => ⟨S1024x2400x1, .f32⟩
  | .hbm, ⟨45, _⟩ => ⟨S1024x2400x1, .f32⟩
  | .hbm, ⟨46, _⟩ => ⟨S1024x2400x1, .f32⟩
  | .hbm, ⟨47, _⟩ => ⟨S1024x2400x1, .f32⟩
  | .hbm, ⟨48, _⟩ => ⟨S1024x2400x1, .f32⟩
  | .hbm, ⟨49, _⟩ => ⟨S1024x2400x1, .f32⟩
  | .hbm, ⟨50, _⟩ => ⟨S1024x2400x1, .f32⟩
  | .hbm, ⟨51, _⟩ => ⟨S1024x2400x1, .f32⟩
  | .hbm, ⟨52, _⟩ => ⟨S1024x2400x1, .f32⟩
  | .hbm, ⟨53, _⟩ => ⟨S1024x2400x1, .f32⟩
  | .hbm, ⟨54, _⟩ => ⟨S1024x2400x1, .f32⟩
  | .hbm, ⟨55, _⟩ => ⟨S1024x2400x1, .f32⟩
  | .hbm, ⟨56, _⟩ => ⟨S1024x2400x1, .f32⟩
  | .hbm, ⟨57, _⟩ => ⟨S1024x2400x16, .f32⟩
  | .hbm, ⟨58, _⟩ => ⟨S1024x15x160x16, .f32⟩
  | .hbm, ⟨59, _⟩ => ⟨S1024x2400x16, .f32⟩
  | .hbm, ⟨60, _⟩ => ⟨S1024x2400x16, .f32⟩
  | .hbm, ⟨61, _⟩ => ⟨S_, .f32⟩
  | .hbm, ⟨62, _⟩ => ⟨S1024x2400, .f32⟩
  | .hbm, ⟨63, _⟩ => ⟨S1024x2400x1, .f32⟩
  | .hbm, ⟨64, _⟩ => ⟨S1024x2400x1, .f32⟩
  | .hbm, ⟨65, _⟩ => ⟨S1024x2400x1, .f32⟩
  | .hbm, ⟨66, _⟩ => ⟨S1024x2400x1, .f32⟩
  | .hbm, ⟨67, _⟩ => ⟨S_, .f32⟩
  | .hbm, ⟨68, _⟩ => ⟨S1024x2400x1, .f32⟩
  | .hbm, ⟨69, _⟩ => ⟨S1024x2400x1, .f32⟩
  | .hbm, ⟨70, _⟩ => ⟨S1024x2400x1, .f32⟩
  | .hbm, ⟨71, _⟩ => ⟨S_, .f32⟩
  | .hbm, ⟨72, _⟩ => ⟨S1024x2400x1, .f32⟩
  | .hbm, ⟨73, _⟩ => ⟨S1024x2400x1, .f32⟩
  | .hbm, ⟨74, _⟩ => ⟨S_, .f32⟩
  | .hbm, ⟨75, _⟩ => ⟨S1024x2400x1, .f32⟩
  | .hbm, ⟨76, _⟩ => ⟨S1024x2400x1, .f32⟩
  | .hbm, ⟨77, _⟩ => ⟨S1024x2400x1, .f32⟩
  | .hbm, ⟨78, _⟩ => ⟨S_, .f32⟩
  | .hbm, ⟨79, _⟩ => ⟨S1024x2400x1, .f32⟩
  | .hbm, ⟨80, _⟩ => ⟨S1024x2400x1, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S1024x2400x1, .f32⟩
  | .hbm, ⟨85, _⟩ => ⟨S1024x2400x1, .f32⟩
  | .hbm, ⟨86, _⟩ => ⟨S_, .f32⟩
  | .hbm, ⟨87, _⟩ => ⟨S1024x2400x1, .f32⟩
  | .hbm, ⟨88, _⟩ => ⟨S1024x2400x1, .f32⟩
  | _, _ => ⟨S1024x2400x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_cst_10 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v67 : Ref sig .tc := ⟨.hbm, 88, rfl⟩

abbrev nD : Nat := 1
abbrev τ : Topo := Topo.v7x

variable {F : FTy → Type} [FloatOps F]

class Facts₀ : Prop where
  bcast_S_S1024x2400x1 : S_.BroadcastsInDim S1024x2400x1 (![] : Fin 0 → Fin S1024x2400x1.rank)
  shapeCasts_S1024x2400x1_S1024x2400 : S1024x2400x1.ShapeCasts S1024x2400
  pads_S1024x2400_S1024x2416_000_1600 : S1024x2400.Pads (![0, 16] : Fin 2 → Nat) ![0, 0] ![0, 0] S1024x2416
  h_S_ : 0 < S_.numel
  slices_S1024x2416_S1024x2400_0_16 : S1024x2416.Slices ![0, 16] S1024x2400
  slices_S1024x2416_S1024x2400_0_15 : S1024x2416.Slices ![0, 15] S1024x2400
  slices_S1024x2416_S1024x2400_0_14 : S1024x2416.Slices ![0, 14] S1024x2400
  slices_S1024x2416_S1024x2400_0_13 : S1024x2416.Slices ![0, 13] S1024x2400
  slices_S1024x2416_S1024x2400_0_12 : S1024x2416.Slices ![0, 12] S1024x2400
  slices_S1024x2416_S1024x2400_0_11 : S1024x2416.Slices ![0, 11] S1024x2400
  slices_S1024x2416_S1024x2400_0_10 : S1024x2416.Slices ![0, 10] S1024x2400
  slices_S1024x2416_S1024x2400_0_9 : S1024x2416.Slices ![0, 9] S1024x2400
  slices_S1024x2416_S1024x2400_0_8 : S1024x2416.Slices ![0, 8] S1024x2400
  slices_S1024x2416_S1024x2400_0_7 : S1024x2416.Slices ![0, 7] S1024x2400
  slices_S1024x2416_S1024x2400_0_6 : S1024x2416.Slices ![0, 6] S1024x2400
  slices_S1024x2416_S1024x2400_0_5 : S1024x2416.Slices ![0, 5] S1024x2400
  slices_S1024x2416_S1024x2400_0_4 : S1024x2416.Slices ![0, 4] S1024x2400
  slices_S1024x2416_S1024x2400_0_3 : S1024x2416.Slices ![0, 3] S1024x2400
  slices_S1024x2416_S1024x2400_0_2 : S1024x2416.Slices ![0, 2] S1024x2400
  slices_S1024x2416_S1024x2400_0_1 : S1024x2416.Slices ![0, 1] S1024x2400
  bcast_S1024x2400_S1024x2400x1_0_1 : S1024x2400.BroadcastsInDim S1024x2400x1 (![0, 1] : Fin 2 → Fin S1024x2400x1.rank)
  concatenates_S1024x2400x1_S1024x2400x1_S1024x2400x1_S1024x2400x1_S1024x2400x1_S1024x2400x1_S1024x2400x1_S1024x2400x1_S1024x2400x1_S1024x2400x1_S1024x2400x1_S1024x2400x1_S1024x2400x1_S1024x2400x1_S1024x2400x1_S1024x2400x1_S1024x2400x16_d2 : Shape.Concatenates [S1024x2400x1, S1024x2400x1, S1024x2400x1, S1024x2400x1, S1024x2400x1, S1024x2400x1, S1024x2400x1, S1024x2400x1, S1024x2400x1, S1024x2400x1, S1024x2400x1, S1024x2400x1, S1024x2400x1, S1024x2400x1, S1024x2400x1, S1024x2400x1] S1024x2400x16 2
  bcast_S1024x15x16_S1024x15x160x16_0_1_3 : S1024x15x16.BroadcastsInDim S1024x15x160x16 (![0, 1, 3] : Fin 3 → Fin S1024x15x160x16.rank)
  shapeCasts_S1024x15x160x16_S1024x2400x16 : S1024x15x160x16.ShapeCasts S1024x2400x16
  reducesTo_S1024x2400x16_S1024x2400_d2 : S1024x2400x16.ReducesTo [2] S1024x2400

variable [Facts₀]

class Facts : Prop extends Facts₀ where

variable [Facts]
-- ==== Proof.Spec.lean ====
/-
  The mu-law linear-prediction step, as two scalar formulas over one row of the batch.

  A row holds 2400 mu-law code words (the signal) and, for each of its 15 frames of 160 samples, 16 prediction
  coefficients.  A code word s is decoded to a linear sample  sign(s − 128) · (32768/255) · (e^{|s − 128| · ln256/128} − 1);
  the decoded row is given 16 zeros of history in front (position j of the padded row is 0 for j < 16 and the
  decoded word j − 16 after that); the prediction at sample t is minus the sum over the 16 taps k of the
  coefficient (frame t / 160, tap k) times the padded row at position t + 16 − k; and the prediction v is encoded
  back to  clamp(128 + sign(v) · 128 · log(1 + (255/32768)·|v|) / ln256, 0, 255).

  The two programs spell this differently in three places, and each spelling is written down here:
  the sign (a comparison-and-select against the order's sign function), the exponent of the decode (one
  multiplication by the single-precision word for ln256/128 against a division by 128 followed by a
  multiplication by the word for ln256), and the sum (sixteen successive subtractions from zero against the
  negation of zero plus a sum).  All constants are the single-precision words the programs carry.
-/
import Idealize.ShloMosaic.PureOps.Ideal
import Idealize.ShloMosaic.Lib.ValueIdx

noncomputable section

namespace Cert.MuLaw

open Idealize.ShloMosaic Idealize.ShloMosaic.ValueIdx

/-- The extended real a single-precision word denotes. -/
abbrev word (b : BitVec 32) : EReal := Ideal.ofBits .f32 b

/-- The absolute value, as both programs have it. -/
def absE (v : EReal) : EReal := max v (-v)

/-- The sign spelt by comparisons: where |v| > 0 it is −1 below zero and 1 otherwise, and v itself (zero) elsewhere. -/
def sgnK (v : EReal) : EReal :=
  Scalar.select (Ideal.cmp .ogt (absE v) (word 0x00000000#32))
    (Scalar.select (Ideal.cmp .olt v (word 0x00000000#32)) (word 0xBF800000#32) (word 0x3F800000#32)) v

/-- The encode with a given sign function: clamp(128 + sign v · (128 · log(1 + (255/32768)·|v|) / ln256), 0, 255). -/
def encWith (sg : EReal → EReal) (v : EReal) : EReal :=
  min (word 0x437F0000#32) (max (word 0x00000000#32)
    (word 0x43000000#32 + sg v * Ideal.div (word 0x43000000#32 * Ideal.log1p (word 0x3BFF0000#32 * absE v)) (word 0x40B17218#32)))

/-- The encode with the comparison sign. -/
def encK (v : EReal) : EReal := encWith sgnK v
/-- The encode with the order's sign. -/
def encR (v : EReal) : EReal := encWith Ideal.sign v

/-- The decode with the comparison sign and one multiplication by the word for ln256/128. -/
def decK (s : EReal) : EReal :=
  (sgnK (s - word 0x43000000#32) * word 0x43008081#32)
    * (Ideal.exp (absE (s - word 0x43000000#32) * word 0x3D317218#32) - word 0x3F800000#32)

/-- The decode with the order's sign, a division by 128 and a multiplication by the word for ln256. -/
def decR (s : EReal) : EReal :=
  (Ideal.sign (s - word 0x43000000#32) * word 0x43008081#32)
    * (Ideal.exp (Ideal.div (absE (s - word 0x43000000#32)) (word 0x43000000#32) * word 0x40B17218#32) - word 0x3F800000#32)

/-- Sixteen products subtracted one after the other from zero. -/
def firK (c s : Fin 16 → EReal) : EReal :=
  word 0x00000000#32 - c 0 * s 0 - c 1 * s 1 - c 2 * s 2 - c 3 * s 3 - c 4 * s 4 - c 5 * s 5 - c 6 * s 6 - c 7 * s 7
    - c 8 * s 8 - c 9 * s 9 - c 10 * s 10 - c 11 * s 11 - c 12 * s 12 - c 13 * s 13 - c 14 * s 14 - c 15 * s 15

/-- Minus (zero plus the sum of the sixteen products). -/
def firR (c s : Fin 16 → EReal) : EReal := -(word 0x00000000#32 + ∑ k : Fin 16, c k * s k)

/-- The decoded row with 16 zeros of history in front, at position j. -/
def padded (dec : EReal → EReal) (sig : ℕ → EReal) (j : ℕ) : EReal := if j < 16 then 0 else dec (sig (j - 16))

/-- Sample t of a row's result, in the first spelling. -/
def outK (sig : ℕ → EReal) (lpc : ℕ → Fin 16 → EReal) (t : ℕ) : EReal :=
  encK (firK (lpc (t / 160)) (fun k => padded decK sig (t + 16 - k.val)))

/-- Sample t of a row's result, in the second spelling. -/
def outR (sig : ℕ → EReal) (lpc : ℕ → Fin 16 → EReal) (t : ℕ) : EReal :=
  encR (firR (lpc (t / 160)) (fun k => padded decR sig (t + 16 - k.val)))

/-- Row b of a signal array [R, 2400, 1], by position (zero past the end). -/
def sigRow3 {R : Nat} (x : (⟨3, ![R, 2400, 1]⟩ : Shape).Idx → EReal) (b : Fin R) (n : ℕ) : EReal :=
  if h : n < 2400 then x (ix3 b ⟨n, h⟩ 0) else 0

/-- Row b of a signal array [R, 2400], by position (zero past the end). -/
def sigRow2 {R : Nat} (x : (⟨2, ![R, 2400]⟩ : Shape).Idx → EReal) (b : Fin R) (n : ℕ) : EReal :=
  if h : n < 2400 then x (ix2 b ⟨n, h⟩) else 0

/-- Row b of a coefficient array [R, 15, 16], by frame and tap (zero past the last frame). -/
def lpcRow {R : Nat} (x : (⟨3, ![R, 15, 16]⟩ : Shape).Idx → EReal) (b : Fin R) (f : ℕ) (k : Fin 16) : EReal :=
  if h : f < 15 then x (ix3 b ⟨f, h⟩ k) else 0

end Cert.MuLaw

end
-- ==== Proof.LibColSlices.lean ====
/-
  A block of consecutive columns cut out of a matrix, read at an index.

  Columns o … o + C' − 1 of a matrix [R, C], as a unit-stride slice at offsets (0, o), read at (p, q) the matrix at
  (p, o + q).  General: any extents, offset and entry type.  (The twin for a block of rows is a slice at offsets
  (o, 0), read at (q, k) as the matrix at (o + q, k).)
-/
import Idealize.ShloMosaic.Lib.ValueIdx
import Idealize.ShloMosaic.Lib.Pipeline.Value

noncomputable section

namespace Cert.Lib.ColSlices

open Idealize.ShloMosaic Idealize.ShloMosaic.ValueIdx

variable {α : Type}

/-- Columns o … o + C' − 1 of a matrix [R, C], read at (p, q), are the matrix at (p, o + q). -/
theorem slice_cols_apply {R C C' o : Nat} (x : (⟨2, ![R, C]⟩ : Shape).Idx → α)
    (h : (⟨2, ![R, C]⟩ : Shape).Slices ![0, o] ⟨2, ![R, C']⟩) (p : Fin R) (q : Fin C') (hq : o + q.val < C) :
    extractStridedSlice ⟨2, ![R, C']⟩ ![0, o] x h (ix2 p q) = x (ix2 p ⟨o + q.val, hq⟩) :=
  extractStridedSlice_apply ![0, o] x h (ix2 p q) (ix2 p ⟨o + q.val, hq⟩) (fun a => by
    match a with
    | ⟨0, _⟩ => show p.val = 0 + p.val; omega
    | ⟨1, _⟩ => rfl)

end Cert.Lib.ColSlices

end
-- ==== Proof.FrameBase.lean ====
/-
  One frame of the kernel's block, read at an index.

  The kernel works on a block of 128 rows.  It decodes the block's 2400 code words, puts 16 columns of zeros in
  front (the padded block, 2416 columns), and for each of the 15 frames f computes, for the 160 samples q of the
  frame, sixteen successive subtractions from zero of (coefficient (row, f, tap k)) · (padded block at column
  16 + 160 f − k + q), then the encode.  Each frame's value is one store.  This module reads each store's value at
  a row p and a sample q: a column slice of the padded block read at (p, q) is the padded block at (p, offset + q),
  and a coefficient column — entry (f, k) of every row, made a column and repeated along the 160 samples — read at
  (p, q) is the coefficient array at (p, f, k).
-/
import proofs.«107889_j26319559589961_2_alg».proof.Proof.Gen.KernelIdeal
import proofs.«107889_j26319559589961_2_alg».proof.Proof.Spec
import proofs.«107889_j26319559589961_2_alg».proof.Proof.LibColSlices
import Idealize.ShloMosaic.Lib.ValueIdx
import Idealize.ShloMosaic.Lib.Pipeline.Value

set_option maxRecDepth 16384

noncomputable section

namespace Cert.KernelIdeal.Frames

open Idealize.ShloMosaic Idealize.ShloMosaic.ValueIdx Cert.KernelIdeal Cert.MuLaw

variable {α : Type}

/-- A slice of one entry per row of the coefficient array lies inside it: the frame is below 15. -/
theorem frame_lt {f i : ℕ} (h : (⟨3, ![128, 15, 16]⟩ : Shape).Slices ![0, f, i] ⟨3, ![128, 1, 1]⟩) : f < 15 := by
  have h1 : f + 1 ≤ 15 := h.2 (1 : Fin 3)
  omega

/-- and the tap below 16. -/
theorem tap_lt {f i : ℕ} (h : (⟨3, ![128, 15, 16]⟩ : Shape).Slices ![0, f, i] ⟨3, ![128, 1, 1]⟩) : i < 16 := by
  have h1 : i + 1 ≤ 16 := h.2 (2 : Fin 3)
  omega

/-- Entry (f, i) of every row, as a column, repeated along the 160 samples, read at (p, q) is the coefficient
    array at (p, f, i). -/
theorem coef_apply (f i : ℕ) (v2 : (⟨3, ![128, 15, 16]⟩ : Shape).Idx → α)
    (h1 : (⟨3, ![128, 15, 16]⟩ : Shape).Slices ![0, f, i] ⟨3, ![128, 1, 1]⟩)
    (h2 : (⟨3, ![128, 1, 1]⟩ : Shape).ShapeCasts ⟨2, ![128, 1]⟩)
    (h3 : (⟨2, ![128, 1]⟩ : Shape).Broadcasts ⟨2, ![128, 160]⟩) (p : Fin 128) (q : Fin 160) :
    broadcastTo ⟨2, ![128, 160]⟩ (shapeCast ⟨2, ![128, 1]⟩ (extractStridedSlice ⟨3, ![128, 1, 1]⟩ ![0, f, i] v2 h1) h2) h3 (ix2 p q)
      = v2 (ix3 p ⟨f, frame_lt h1⟩ ⟨i, tap_lt h1⟩) := by
  refine (broadcastTo_apply _ h3 (ix2 p q) (ix2 p 0) (fun a => by
    match a with
    | ⟨0, _⟩ => rfl
    | ⟨1, _⟩ => rfl)).trans ?_
  refine (shapeCast_apply _ h2 (ix2 p 0) (ix3 p 0 0) (by
    rw [Shape.rowMajor_val_three, Shape.rowMajor_val_two]
    show (p.val * 1 + 0) * 1 + 0 = p.val * 1 + 0
    omega)).trans ?_
  exact extractStridedSlice_apply ![0, f, i] v2 h1 (ix3 p 0 0) (ix3 p ⟨f, frame_lt h1⟩ ⟨i, tap_lt h1⟩) (fun a => by
    match a with
    | ⟨0, _⟩ => show p.val = 0 + p.val; omega
    | ⟨1, _⟩ => rfl
    | ⟨2, _⟩ => rfl)

/-- A column slice of the padded block stays inside it. -/
theorem col_lt {o : ℕ} (h : (⟨2, ![128, 2416]⟩ : Shape).Slices ![0, o] ⟨2, ![128, 160]⟩) (q : Fin 160) : o + q.val < 2416 := by
  have h1 : o + 160 ≤ 2416 := h.2 (1 : Fin 2)
  have := q.isLt
  omega

/-- Columns o … o + 159 of the padded block, read at (p, q), are the padded block at (p, o + q). -/
theorem tap_slice_apply (o : ℕ) (x : (⟨2, ![128, 2416]⟩ : Shape).Idx → α)
    (h : (⟨2, ![128, 2416]⟩ : Shape).Slices ![0, o] ⟨2, ![128, 160]⟩) (p : Fin 128) (q : Fin 160) :
    extractStridedSlice ⟨2, ![128, 160]⟩ ![0, o] x h (ix2 p q) = x (ix2 p ⟨o + q.val, col_lt h q⟩) :=
  Cert.Lib.ColSlices.slice_cols_apply x h p q (col_lt h q)

section Pointwise
variable {s : Shape} {φ : FTy}
theorem absf_apply (a : FVec Ideal s φ) (i : s.Idx) : absf a i = absE (a i) := rfl
theorem log1p_apply (a : FVec Ideal s φ) (i : s.Idx) : log1p a i = Ideal.log1p (a i) := rfl
end Pointwise

/-- Frame f of the block at row p, sample q, from the padded block and the coefficients: the sixteen successive
    subtractions, encoded. -/
def frameAt (xp : (⟨2, ![128, 2416]⟩ : Shape).Idx → EReal) (v2 : (⟨3, ![128, 15, 16]⟩ : Shape).Idx → EReal)
    (f : ℕ) (hf : f < 15) (p : Fin 128) (q : Fin 160) : EReal :=
  encK (firK (fun k => v2 (ix3 p ⟨f, hf⟩ k))
    (fun k => xp (ix2 p ⟨16 + 160 * f - k.val + q.val, by have := k.isLt; have := q.isLt; omega⟩)))

end Cert.KernelIdeal.Frames

end
-- ==== Proof.FramesA.lean ====
/-
  Frames 0 to 4 of the kernel's block, each read at a row p and a sample q of the frame: the store's value there
  is the encode of sixteen successive subtractions from zero of coefficient (p, frame, tap k) times the padded block
  at (p, 16 + 160·frame − k + q).  Each proof pushes the index through the pointwise operations and reads the column
  slices and the coefficient columns where they stand.
-/
import proofs.«107889_j26319559589961_2_alg».proof.Proof.Gen.KernelIdeal.Skeleton
import proofs.«107889_j26319559589961_2_alg».proof.Proof.FrameBase

set_option maxRecDepth 16384

noncomputable section

namespace Cert.KernelIdeal.Frames

open Idealize.ShloMosaic Idealize.ShloMosaic.ValueIdx Cert.KernelIdeal Cert.KernelIdeal.Gen Cert.MuLaw

/-- Frame 0's store, read at row p and sample q. -/
theorem frame0_apply (v0 : Vec Ideal S128x2400 .f32) (v2 : Vec Ideal S128x15x16 .f32) (p : Fin 128) (q : Fin 160) :
    (k0_pay9 v2 (k0_pay2 v0) (k0_pay6 v2 (k0_pay2 v0) (k0_pay3 v0 v2) (k0_pay4 v0) (k0_pay5 v2)) (k0_pay7 (k0_pay2 v0)) (k0_pay8 v2)) (ix2 p q)
      = frameAt (k0_pay2 v0) v2 0 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 1's store, read at row p and sample q. -/
theorem frame1_apply (v0 : Vec Ideal S128x2400 .f32) (v2 : Vec Ideal S128x15x16 .f32) (p : Fin 128) (q : Fin 160) :
    (k0_pay16 v2 (k0_pay2 v0) (k0_pay13 v2 (k0_pay2 v0) (k0_pay10 v2 (k0_pay2 v0)) (k0_pay11 (k0_pay2 v0)) (k0_pay12 v2)) (k0_pay14 (k0_pay2 v0)) (k0_pay15 v2)) (ix2 p q)
      = frameAt (k0_pay2 v0) v2 1 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 2's store, read at row p and sample q. -/
theorem frame2_apply (v0 : Vec Ideal S128x2400 .f32) (v2 : Vec Ideal S128x15x16 .f32) (p : Fin 128) (q : Fin 160) :
    (k0_pay22 (k0_pay20 v2 (k0_pay2 v0) (k0_pay17 v2 (k0_pay2 v0)) (k0_pay18 (k0_pay2 v0))) (k0_pay21 v2 (k0_pay2 v0) (k0_pay17 v2 (k0_pay2 v0)) (k0_pay18 (k0_pay2 v0))) (Scalar.ofBits .f32 0x40B17218#32)) (ix2 p q)
      = frameAt (k0_pay2 v0) v2 2 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 3's store, read at row p and sample q. -/
theorem frame3_apply (v0 : Vec Ideal S128x2400 .f32) (v2 : Vec Ideal S128x15x16 .f32) (p : Fin 128) (q : Fin 160) :
    (k0_pay27 (k0_pay24 v2 (k0_pay2 v0) (k0_pay23 v2 (k0_pay2 v0))) (k0_pay25 v2 (k0_pay2 v0) (k0_pay23 v2 (k0_pay2 v0))) (k0_pay26 v2 (k0_pay2 v0) (k0_pay23 v2 (k0_pay2 v0)))) (ix2 p q)
      = frameAt (k0_pay2 v0) v2 3 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 4's store, read at row p and sample q. -/
theorem frame4_apply (v0 : Vec Ideal S128x2400 .f32) (v2 : Vec Ideal S128x15x16 .f32) (p : Fin 128) (q : Fin 160) :
    (k0_pay32 v2 (k0_pay2 v0) (k0_pay30 v2 (k0_pay2 v0) (k0_pay28 v2 (k0_pay2 v0)) (k0_pay29 v2 (k0_pay2 v0))) (k0_pay31 v2 (k0_pay2 v0))) (ix2 p q)
      = frameAt (k0_pay2 v0) v2 4 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

end Cert.KernelIdeal.Frames

end
-- ==== Proof.FramesB.lean ====
/-
  Frames 5 to 9 of the kernel's block, each read at a row p and a sample q of the frame: the store's value there
  is the encode of sixteen successive subtractions from zero of coefficient (p, frame, tap k) times the padded block
  at (p, 16 + 160·frame − k + q).  Each proof pushes the index through the pointwise operations and reads the column
  slices and the coefficient columns where they stand.
-/
import proofs.«107889_j26319559589961_2_alg».proof.Proof.Gen.KernelIdeal.Skeleton
import proofs.«107889_j26319559589961_2_alg».proof.Proof.FrameBase

set_option maxRecDepth 16384

noncomputable section

namespace Cert.KernelIdeal.Frames

open Idealize.ShloMosaic Idealize.ShloMosaic.ValueIdx Cert.KernelIdeal Cert.KernelIdeal.Gen Cert.MuLaw

/-- Frame 5's store, read at row p and sample q. -/
theorem frame5_apply (v0 : Vec Ideal S128x2400 .f32) (v2 : Vec Ideal S128x15x16 .f32) (p : Fin 128) (q : Fin 160) :
    (k0_pay39 v2 (k0_pay2 v0) (k0_pay36 v2 (k0_pay2 v0) (k0_pay33 v2 (k0_pay2 v0)) (k0_pay34 (k0_pay2 v0)) (k0_pay35 v2)) (k0_pay37 (k0_pay2 v0)) (k0_pay38 v2)) (ix2 p q)
      = frameAt (k0_pay2 v0) v2 5 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 6's store, read at row p and sample q. -/
theorem frame6_apply (v0 : Vec Ideal S128x2400 .f32) (v2 : Vec Ideal S128x15x16 .f32) (p : Fin 128) (q : Fin 160) :
    (k0_pay47 (k0_pay46 v2 (k0_pay2 v0) (k0_pay43 v2 (k0_pay2 v0) (k0_pay40 (F := Ideal)) (k0_pay41 (k0_pay2 v0)) (k0_pay42 v2)) (k0_pay44 (k0_pay2 v0)) (k0_pay45 v2)) (Scalar.ofBits .f32 0x00000000#32) (Scalar.ofBits .f32 0x437F0000#32)) (ix2 p q)
      = frameAt (k0_pay2 v0) v2 6 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 7's store, read at row p and sample q. -/
theorem frame7_apply (v0 : Vec Ideal S128x2400 .f32) (v2 : Vec Ideal S128x15x16 .f32) (p : Fin 128) (q : Fin 160) :
    (k0_pay54 (k0_pay52 v2 (k0_pay2 v0) (k0_pay48 v2 (k0_pay2 v0)) (k0_pay49 (k0_pay2 v0)) (k0_pay50 v2)) (k0_pay53 v2 (k0_pay2 v0) (k0_pay48 v2 (k0_pay2 v0)) (k0_pay49 (k0_pay2 v0)) (k0_pay50 v2))) (ix2 p q)
      = frameAt (k0_pay2 v0) v2 7 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 8's store, read at row p and sample q. -/
theorem frame8_apply (v0 : Vec Ideal S128x2400 .f32) (v2 : Vec Ideal S128x15x16 .f32) (p : Fin 128) (q : Fin 160) :
    (k0_pay58 (k0_pay57 v2 (k0_pay2 v0) (k0_pay55 v2 (k0_pay2 v0)) (k0_pay56 (k0_pay2 v0)))) (ix2 p q)
      = frameAt (k0_pay2 v0) v2 8 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 9's store, read at row p and sample q. -/
theorem frame9_apply (v0 : Vec Ideal S128x2400 .f32) (v2 : Vec Ideal S128x15x16 .f32) (p : Fin 128) (q : Fin 160) :
    (k0_pay61 v2 (k0_pay2 v0) (k0_pay60 v2 (k0_pay2 v0) (k0_pay59 v2 (k0_pay2 v0)))) (ix2 p q)
      = frameAt (k0_pay2 v0) v2 9 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

end Cert.KernelIdeal.Frames

end
-- ==== Proof.FramesC.lean ====
/-
  Frames 10 to 14 of the kernel's block, each read at a row p and a sample q of the frame: the store's value there
  is the encode of sixteen successive subtractions from zero of coefficient (p, frame, tap k) times the padded block
  at (p, 16 + 160·frame − k + q).  Each proof pushes the index through the pointwise operations and reads the column
  slices and the coefficient columns where they stand.
-/
import proofs.«107889_j26319559589961_2_alg».proof.Proof.Gen.KernelIdeal.Skeleton
import proofs.«107889_j26319559589961_2_alg».proof.Proof.FrameBase

set_option maxRecDepth 16384

noncomputable section

namespace Cert.KernelIdeal.Frames

open Idealize.ShloMosaic Idealize.ShloMosaic.ValueIdx Cert.KernelIdeal Cert.KernelIdeal.Gen Cert.MuLaw

/-- Frame 10's store, read at row p and sample q. -/
theorem frame10_apply (v0 : Vec Ideal S128x2400 .f32) (v2 : Vec Ideal S128x15x16 .f32) (p : Fin 128) (q : Fin 160) :
    (k0_pay66 v2 (k0_pay2 v0) (k0_pay64 v2 (k0_pay2 v0) (k0_pay62 v2 (k0_pay2 v0)) (k0_pay63 v2 (k0_pay2 v0))) (k0_pay65 v2 (k0_pay2 v0))) (ix2 p q)
      = frameAt (k0_pay2 v0) v2 10 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 11's store, read at row p and sample q. -/
theorem frame11_apply (v0 : Vec Ideal S128x2400 .f32) (v2 : Vec Ideal S128x15x16 .f32) (p : Fin 128) (q : Fin 160) :
    (k0_pay71 (k0_pay70 v2 (k0_pay2 v0) (k0_pay67 v2 (k0_pay2 v0)) (k0_pay68 (k0_pay2 v0)) (k0_pay69 v2))) (ix2 p q)
      = frameAt (k0_pay2 v0) v2 11 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 12's store, read at row p and sample q. -/
theorem frame12_apply (v0 : Vec Ideal S128x2400 .f32) (v2 : Vec Ideal S128x15x16 .f32) (p : Fin 128) (q : Fin 160) :
    (k0_pay78 (k0_pay75 v2 (k0_pay2 v0) (k0_pay72 v2 (k0_pay2 v0)) (k0_pay73 (k0_pay2 v0)) (k0_pay74 v2)) (k0_pay76 v2 (k0_pay2 v0) (k0_pay72 v2 (k0_pay2 v0)) (k0_pay73 (k0_pay2 v0)) (k0_pay74 v2)) (k0_pay77 v2 (k0_pay2 v0) (k0_pay72 v2 (k0_pay2 v0)) (k0_pay73 (k0_pay2 v0)) (k0_pay74 v2))) (ix2 p q)
      = frameAt (k0_pay2 v0) v2 12 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 13's store, read at row p and sample q. -/
theorem frame13_apply (v0 : Vec Ideal S128x2400 .f32) (v2 : Vec Ideal S128x15x16 .f32) (p : Fin 128) (q : Fin 160) :
    (k0_pay85 (k0_pay82 v2 (k0_pay2 v0) (k0_pay79 v2 (k0_pay2 v0)) (k0_pay80 (k0_pay2 v0)) (k0_pay81 v2)) (k0_pay83 (k0_pay2 v0)) (k0_pay84 v2)) (ix2 p q)
      = frameAt (k0_pay2 v0) v2 13 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

/-- Frame 14's store, read at row p and sample q. -/
theorem frame14_apply (v0 : Vec Ideal S128x2400 .f32) (v2 : Vec Ideal S128x15x16 .f32) (p : Fin 128) (q : Fin 160) :
    (k0_pay1 (k0_pay90 v2 (k0_pay2 v0) (k0_pay88 v2 (k0_pay2 v0) (k0_pay86 v2 (k0_pay2 v0)) (k0_pay87 (k0_pay2 v0))) (k0_pay89 (k0_pay2 v0))) (k0_pay91 v2 (k0_pay2 v0) (k0_pay88 v2 (k0_pay2 v0) (k0_pay86 v2 (k0_pay2 v0)) (k0_pay87 (k0_pay2 v0))) (k0_pay89 (k0_pay2 v0)))) (ix2 p q)
      = frameAt (k0_pay2 v0) v2 14 (by decide) p q := by
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, mulf_apply, subf_apply, addf_apply, divf_apply,
    minimumf_apply, maximumf_apply, select_apply, cmpf_apply, broadcast_apply, constant_apply, absf_apply, log1p_apply,
    coef_apply, tap_slice_apply]
  rfl

end Cert.KernelIdeal.Frames

end
-- ==== Proof.Block.lean ====
/-
  The kernel's block as one function.

  The fifteen stores of a block (one per frame) are restrictions of ONE function of the block's index (row p,
  sample j): the encode of the sixteen successive subtractions from zero of coefficient (p, j / 160, k) times the
  padded block at (p, j + 16 − k).  Frame f's store covers samples 160 f … 160 f + 159, and sample j = 160 f + q has
  frame j / 160 = f and padded column j + 16 − k = 16 + 160 f − k + q.  The stores tile the block, so what they
  leave in the output buffer is that function.  The padded block itself, at (p, n), is zero for n < 16 and the
  decoded code word (p, n − 16) after that: a two-piece concatenation read in its first or its second piece.
-/
import proofs.«107889_j26319559589961_2_alg».proof.Proof.Gen.KernelIdeal.Frame
import proofs.«107889_j26319559589961_2_alg».proof.Proof.FramesA
import proofs.«107889_j26319559589961_2_alg».proof.Proof.FramesB
import proofs.«107889_j26319559589961_2_alg».proof.Proof.FramesC
import proofs.«107889_j26319559589961_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Block

open Idealize.ShloMosaic Idealize.ShloMosaic.ValueIdx Cert.KernelIdeal Cert.KernelIdeal.Gen Cert.KernelIdeal.Frames Cert.MuLaw

/-- The sixteen subtractions depend only on the sixteen coefficients and the sixteen samples. -/
theorem firK_congr {c c' s s' : Fin 16 → EReal} (hc : ∀ k, c k = c' k) (hs : ∀ k, s k = s' k) : firK c s = firK c' s' := by
  obtain rfl : c = c' := funext hc
  obtain rfl : s = s' := funext hs
  rfl

/-- The block's result at (row, sample), from the padded block and the coefficients. -/
def blockFn (xp : S128x2416.Idx → EReal) (v2 : S128x15x16.Idx → EReal) (y : S128x2400.Idx) : EReal :=
  encK (firK (fun k => v2 (ix3 (y 0) ⟨(y 1).val / 160, by have h : (y 1).val < 2400 := (y 1).isLt; omega⟩ k))
    (fun k => xp (ix2 (y 0) ⟨(y 1).val + 16 - k.val, by have h : (y 1).val < 2400 := (y 1).isLt; have := k.isLt; omega⟩)))

/-- At row p and sample 160 f + q the block's function is frame f's value at (p, q). -/
theorem blockFn_at (xp : S128x2416.Idx → EReal) (v2 : S128x15x16.Idx → EReal) (y : S128x2400.Idx) (f : ℕ) (hf : f < 15)
    (p : Fin 128) (q : Fin 160) (h0 : (y 0).val = 0 + 1 * p.val) (h1 : (y 1).val = 160 * f + 1 * q.val) :
    blockFn xp v2 y = frameAt xp v2 f hf p q := by
  have hq := q.isLt
  unfold blockFn frameAt
  refine congrArg encK (firK_congr (fun k => ?_) (fun k => ?_))
  · refine congrArg v2 (funext fun a => Fin.ext ?_)
    match a with
    | ⟨0, _⟩ => show (y 0).val = p.val; omega
    | ⟨1, _⟩ => show (y 1).val / 160 = f; omega
    | ⟨2, _⟩ => rfl
  · have hk := k.isLt
    refine congrArg xp (funext fun a => Fin.ext ?_)
    match a with
    | ⟨0, _⟩ => show (y 0).val = p.val; omega
    | ⟨1, _⟩ => show (y 1).val + 16 - k.val = 16 + 160 * f - k.val + q.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- What the fifteen stores leave in the block's output buffer is the block's function of the padded block and
    the coefficients. -/
theorem out_eq (x0 : Vec Ideal S128x2400 .f32) (x1 : Vec Ideal S128x15x16 .f32) :
    out0_2 x0 x1 = blockFn (k0_pay2 x0) x1 := by
  have e0 : View.ld x0 r0_0 = x0 := View.ld_unit_zero (S := S128x2400) hz2 _ x0
  have e1 : View.ld x1 r0_1 = x1 := View.ld_unit_zero (S := S128x15x16) hz3 _ x1
  funext y
  unfold out0_2
  rw [e0, e1]
  refine View.canon_apply_of_pieces (Val := Elt Ideal) (blockFn (k0_pay2 x0) x1) _ ?_ y (cover0_2 _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl
  · intro x
    obtain ⟨p, q, rfl⟩ : ∃ (p : Fin 128) (q : Fin 160), x = ix2 p q := ⟨x 0, x 1, eq_ix2 x⟩
    exact (frame14_apply x0 x1 p q).trans (blockFn_at _ _ _ 14 (by decide) p q rfl rfl).symm
  · intro x
    obtain ⟨p, q, rfl⟩ : ∃ (p : Fin 128) (q : Fin 160), x = ix2 p q := ⟨x 0, x 1, eq_ix2 x⟩
    exact (frame13_apply x0 x1 p q).trans (blockFn_at _ _ _ 13 (by decide) p q rfl rfl).symm
  · intro x
    obtain ⟨p, q, rfl⟩ : ∃ (p : Fin 128) (q : Fin 160), x = ix2 p q := ⟨x 0, x 1, eq_ix2 x⟩
    exact (frame12_apply x0 x1 p q).trans (blockFn_at _ _ _ 12 (by decide) p q rfl rfl).symm
  · intro x
    obtain ⟨p, q, rfl⟩ : ∃ (p : Fin 128) (q : Fin 160), x = ix2 p q := ⟨x 0, x 1, eq_ix2 x⟩
    exact (frame11_apply x0 x1 p q).trans (blockFn_at _ _ _ 11 (by decide) p q rfl rfl).symm
  · intro x
    obtain ⟨p, q, rfl⟩ : ∃ (p : Fin 128) (q : Fin 160), x = ix2 p q := ⟨x 0, x 1, eq_ix2 x⟩
    exact (frame10_apply x0 x1 p q).trans (blockFn_at _ _ _ 10 (by decide) p q rfl rfl).symm
  · intro x
    obtain ⟨p, q, rfl⟩ : ∃ (p : Fin 128) (q : Fin 160), x = ix2 p q := ⟨x 0, x 1, eq_ix2 x⟩
    exact (frame9_apply x0 x1 p q).trans (blockFn_at _ _ _ 9 (by decide) p q rfl rfl).symm
  · intro x
    obtain ⟨p, q, rfl⟩ : ∃ (p : Fin 128) (q : Fin 160), x = ix2 p q := ⟨x 0, x 1, eq_ix2 x⟩
    exact (frame8_apply x0 x1 p q).trans (blockFn_at _ _ _ 8 (by decide) p q rfl rfl).symm
  · intro x
    obtain ⟨p, q, rfl⟩ : ∃ (p : Fin 128) (q : Fin 160), x = ix2 p q := ⟨x 0, x 1, eq_ix2 x⟩
    exact (frame7_apply x0 x1 p q).trans (blockFn_at _ _ _ 7 (by decide) p q rfl rfl).symm
  · intro x
    obtain ⟨p, q, rfl⟩ : ∃ (p : Fin 128) (q : Fin 160), x = ix2 p q := ⟨x 0, x 1, eq_ix2 x⟩
    exact (frame6_apply x0 x1 p q).trans (blockFn_at _ _ _ 6 (by decide) p q rfl rfl).symm
  · intro x
    obtain ⟨p, q, rfl⟩ : ∃ (p : Fin 128) (q : Fin 160), x = ix2 p q := ⟨x 0, x 1, eq_ix2 x⟩
    exact (frame5_apply x0 x1 p q).trans (blockFn_at _ _ _ 5 (by decide) p q rfl rfl).symm
  · intro x
    obtain ⟨p, q, rfl⟩ : ∃ (p : Fin 128) (q : Fin 160), x = ix2 p q := ⟨x 0, x 1, eq_ix2 x⟩
    exact (frame4_apply x0 x1 p q).trans (blockFn_at _ _ _ 4 (by decide) p q rfl rfl).symm
  · intro x
    obtain ⟨p, q, rfl⟩ : ∃ (p : Fin 128) (q : Fin 160), x = ix2 p q := ⟨x 0, x 1, eq_ix2 x⟩
    exact (frame3_apply x0 x1 p q).trans (blockFn_at _ _ _ 3 (by decide) p q rfl rfl).symm
  · intro x
    obtain ⟨p, q, rfl⟩ : ∃ (p : Fin 128) (q : Fin 160), x = ix2 p q := ⟨x 0, x 1, eq_ix2 x⟩
    exact (frame2_apply x0 x1 p q).trans (blockFn_at _ _ _ 2 (by decide) p q rfl rfl).symm
  · intro x
    obtain ⟨p, q, rfl⟩ : ∃ (p : Fin 128) (q : Fin 160), x = ix2 p q := ⟨x 0, x 1, eq_ix2 x⟩
    exact (frame1_apply x0 x1 p q).trans (blockFn_at _ _ _ 1 (by decide) p q rfl rfl).symm
  · intro x
    obtain ⟨p, q, rfl⟩ : ∃ (p : Fin 128) (q : Fin 160), x = ix2 p q := ⟨x 0, x 1, eq_ix2 x⟩
    exact (frame0_apply x0 x1 p q).trans (blockFn_at _ _ _ 0 (by decide) p q rfl rfl).symm

/-- The padded block at (p, n): zero in the sixteen columns of history, the decoded code word (p, n − 16) after. -/
theorem padded_apply (v0 : Vec Ideal S128x2400 .f32) (p : Fin 128) (n : ℕ) (h : n < 2416) :
    k0_pay2 v0 (ix2 p ⟨n, h⟩) = padded decK (sigRow2 v0 p) n := by
  unfold k0_pay2 padded
  simp only [shapeCast_self]
  by_cases hn : n < 16
  · rw [if_pos hn]
    refine (concatenate_pair_apply_left (s₁ := S128x16) (s₂ := S128x2400) (1 : Fin 2) _ _ _ (ix2 p ⟨n, h⟩) rfl (ix2 p ⟨n, hn⟩ : S128x16.Idx) (fun b => by
      match b with
      | ⟨0, _⟩ => rfl
      | ⟨1, _⟩ => rfl)).trans ?_
    exact Ideal.ofBits_zero_f32
  · rw [if_neg hn]
    have h2 : n - 16 < 2400 := by omega
    refine (concatenate_pair_apply_right (s₁ := S128x16) (s₂ := S128x2400) (1 : Fin 2) _ _ _ (ix2 p ⟨n, h⟩) rfl rfl (ix2 p ⟨n - 16, h2⟩ : S128x2400.Idx) (fun b hb => by
      match b with
      | ⟨0, _⟩ => rfl
      | ⟨1, _⟩ => exact absurd rfl hb) (by show (n - 16) + 16 = n; omega)).trans ?_
    unfold sigRow2
    rw [dif_pos h2]
    rfl

/-- So the block's result at (p, j) is the row formula's first spelling on row p of the block. -/
theorem blockFn_apply (v0 : Vec Ideal S128x2400 .f32) (v2 : Vec Ideal S128x15x16 .f32) (p : Fin 128) (j : Fin 2400) :
    blockFn (k0_pay2 v0) v2 (ix2 p j) = outK (sigRow2 v0 p) (lpcRow v2 p) j.val := by
  have hj := j.isLt
  unfold blockFn outK
  refine congrArg encK (firK_congr (fun k => ?_) (fun k => ?_))
  · unfold lpcRow
    rw [dif_pos (by omega : j.val / 160 < 15)]
  · exact padded_apply v0 p _ _

end Cert.KernelIdeal.Block

end
-- ==== Proof.KernelValue.lean ====
/-
  The kernel's result array as one function of its argument arrays.

  The program reshapes the signal [1024, 2400, 1] to [1024, 2400], runs the kernel over 8 blocks of 128 rows (block t
  is rows 128 t … 128 t + 127 of the signal, of the coefficients and of the result), and gives the result a trailing
  unit axis.  A block's result at (row p, sample j) is the row formula on row p of the block's inputs, and row p
  of block t's inputs is row 128 t + p of the arrays; so what block t writes back is block t of ONE function of the
  whole arrays, the 8 blocks cover the result array, and the array ends holding that function.
-/
import proofs.«107889_j26319559589961_2_alg».proof.Proof.Gen.KernelIdeal.Frame
import proofs.«107889_j26319559589961_2_alg».proof.Proof.Block
import proofs.«107889_j26319559589961_2_alg».proof.Proof.Spec
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block Cert.MuLaw Idealize.ShloMosaic.ValueIdx

variable (m : (ℓ : Loc nD τ sig) → Buf (Elt Ideal) ℓ) (ρ : Dev nD → PrngReg)

/-- Two signal arrays that agree along a row have the same row. -/
theorem sigRow2_congr {R R' : Nat} (x : (⟨2, ![R, 2400]⟩ : Shape).Idx → EReal) (x' : (⟨2, ![R', 2400]⟩ : Shape).Idx → EReal)
    (b : Fin R) (b' : Fin R') (h : ∀ n : Fin 2400, x (ix2 b n) = x' (ix2 b' n)) : sigRow2 x b = sigRow2 x' b' := by
  funext n
  unfold sigRow2
  by_cases hn : n < 2400
  · rw [dif_pos hn, dif_pos hn]; exact h ⟨n, hn⟩
  · rw [dif_neg hn, dif_neg hn]

/-- Two coefficient arrays that agree along a row have the same row. -/
theorem lpcRow_congr {R R' : Nat} (x : (⟨3, ![R, 15, 16]⟩ : Shape).Idx → EReal) (x' : (⟨3, ![R', 15, 16]⟩ : Shape).Idx → EReal)
    (b : Fin R) (b' : Fin R') (h : ∀ (f : Fin 15) (k : Fin 16), x (ix3 b f k) = x' (ix3 b' f k)) : lpcRow x b = lpcRow x' b' := by
  funext f k
  unfold lpcRow
  by_cases hf : f < 15
  · rw [dif_pos hf, dif_pos hf]; exact h ⟨f, hf⟩ k
  · rw [dif_neg hf, dif_neg hf]

/-- The result array [1024, 2400] from the reshaped signal and the coefficients: the row formula, row by row. -/
def G (A0 : S1024x2400.Idx → EReal) (A1 : S1024x15x16.Idx → EReal) : S1024x2400.Idx → EReal :=
  fun i => outK (sigRow2 A0 (i 0)) (lpcRow A1 (i 0)) (i 1).val

/-- The index maps over the 8 points: the three windows move together along the rows, block t at point t, and
    stay at zero on the other axes. -/
theorem idx_facts : ∀ t : Fin cfg0.N, win0_0.index t (0 : Fin 2) = win0_2.index t (0 : Fin 2)
    ∧ win0_0.index t (1 : Fin 2) = 0
    ∧ win0_1.index t (0 : Fin 3) = win0_2.index t (0 : Fin 2)
    ∧ win0_1.index t (1 : Fin 3) = 0
    ∧ win0_1.index t (2 : Fin 3) = 0
    ∧ win0_2.index t (1 : Fin 2) = 0
    ∧ win0_2.index t (0 : Fin 2) ≤ 7 :=
  (by decide +kernel : ∀ t : Fin grid0.N, _)

/-- Every block of rows is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- Row p of the signal's block at point t is row (block index)·128 + p of the reshaped signal. -/
theorem sig_block_apply (c : Dev nD) (t : Fin cfg0.N) (p : Fin 128) (n : Fin 2400) (b : Fin 1024)
    (hb : b.val = win0_2.index t (0 : Fin 2) * 128 + 1 * p.val) :
    (iblk m c 0 t : Vec Ideal S128x2400 .f32) (ix2 p n) = (V m c main_v0 : S1024x2400.Idx → EReal) (ix2 b n) := by
  obtain ⟨e00, e01, e10, e11, e12, e21, hb7⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 128 + 1 * p.val = b.val; rw [e00, hb]
  | ⟨1, _⟩ => show win0_0.index t (1 : Fin 2) * 2400 + 1 * n.val = n.val; rw [e01]; omega

/-- Row p of the coefficients' block at point t is row (block index)·128 + p of the coefficients. -/
theorem lpc_block_apply (c : Dev nD) (t : Fin cfg0.N) (p : Fin 128) (f : Fin 15) (k : Fin 16) (b : Fin 1024)
    (hb : b.val = win0_2.index t (0 : Fin 2) * 128 + 1 * p.val) :
    (iblk m c 1 t : Vec Ideal S128x15x16 .f32) (ix3 p f k) = (V m c main_arg1 : S1024x15x16.Idx → EReal) (ix3 b f k) := by
  obtain ⟨e00, e01, e10, e11, e12, e21, hb7⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 128 + 1 * p.val = b.val; rw [e10, hb]
  | ⟨1, _⟩ => show win0_1.index t (1 : Fin 3) * 15 + 1 * f.val = f.val; rw [e11]; omega
  | ⟨2, _⟩ => show win0_1.index t (2 : Fin 3) * 16 + 1 * k.val = k.val; rw [e12]; omega

/-- WHAT POINT t WRITES BACK is block t of the result function of the arrays as the region finds them. -/
theorem flushed_eq (c : Dev nD) (t : Fin cfg0.N) :
    (dats m 0 c).flushed 2 t = ((cfg0.win 2).blk t).view.read (Elt Ideal) (G (V m c main_v0) (V m c main_arg1)) := by
  show (cfg0.win 2).cut (grid0.coords t) ((dats m 0 c).after 2 t) = _
  rw [after0_2, Block.out_eq (iblk m c 0 t) (iblk m c 1 t)]
  obtain ⟨e00, e01, e10, e11, e12, e21, hb7⟩ := idx_facts t
  funext j
  show blockFn (k0_pay2 (iblk m c 0 t)) (iblk m c 1 t) j = G (V m c main_v0) (V m c main_arg1) (((cfg0.win 2).blk t).view.emb j)
  obtain ⟨p, n, rfl⟩ : ∃ (p : Fin 128) (n : Fin 2400), j = ix2 p n := ⟨j 0, j 1, eq_ix2 j⟩
  rw [Block.blockFn_apply (iblk m c 0 t) (iblk m c 1 t) p n]
  have hp := p.isLt
  have hk0 : ((((cfg0.win 2).blk t).view.emb (ix2 p n)) 0).val = win0_2.index t (0 : Fin 2) * 128 + 1 * p.val := rfl
  have hk1 : ((((cfg0.win 2).blk t).view.emb (ix2 p n)) 1).val = win0_2.index t (1 : Fin 2) * 2400 + 1 * n.val := rfl
  generalize ((cfg0.win 2).blk t).view.emb (ix2 p n) = k at hk0 hk1 ⊢
  unfold G
  have hkn : (k 1).val = n.val := by rw [hk1, e21]; omega
  rw [hkn]
  have hs : sigRow2 (iblk m c 0 t : Vec Ideal S128x2400 .f32) p = sigRow2 (V m c main_v0 : S1024x2400.Idx → EReal) (k 0) :=
    sigRow2_congr _ _ p (k 0) (fun n' => sig_block_apply m c t p n' (k 0) hk0)
  have hl : lpcRow (iblk m c 1 t : Vec Ideal S128x15x16 .f32) p = lpcRow (V m c main_arg1 : S1024x15x16.Idx → EReal) (k 0) :=
    lpcRow_congr _ _ p (k 0) (fun f k' => lpc_block_apply m c t p f k' (k 0) hk0)
  rw [hs, hl]

/-- An index of the result array is in point t's block iff each coordinate is in the block's range on its axis. -/
theorem mem_blk (t : Fin cfg0.N) (i : S1024x2400.Idx) :
    i ∈ ((cfg0.win 2).blk t).view.set ↔ ∀ a : Fin 2, win0_2.index t a * S128x2400.size a ≤ (i a).val ∧ (i a).val < win0_2.index t a * S128x2400.size a + S128x2400.size a := by
  show i ∈ ((View.whole main_v1).slice (win0_2.rect t)).set ↔ _
  rw [View.set_slice_whole, Rect.mem_set_unit]
  exact Iff.rfl

/-- Every index of the result array is in some point's block: row r is in block r / 128. -/
theorem covered (i : S1024x2400.Idx) :
    ∃ t : Fin cfg0.N, (cfg0.win 2).flush t = true ∧ i ∈ ((cfg0.win 2).blk t).view.set := by
  have hi0 : (i 0).val < 1024 := (i 0).isLt
  have hi1 : (i 1).val < 2400 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 2400 ≤ (i 1).val ∧ (i 1).val < win0_2.index t (1 : Fin 2) * 2400 + 2400; omega

/-- THE RESULT ARRAY of the kernel after the run: the row formula of the arrays as the region finds them. -/
theorem final (c : Dev nD) : (dats m 0 c).arrAt 2 cfg0.N = G (V m c main_v0) (V m c main_arg1) :=
  (dats m 0 c).arrAt_eq_of_cover 2 (G (V m c main_v0) (V m c main_arg1)) (fun t _ => flushed_eq m c t) covered

/-- The signal as the region finds it is the argument reshaped. -/
theorem V_main_v0 (c : Dev nD) : (V m c main_v0 : S1024x2400.Idx → EReal)
    = shapeCast S1024x2400 (m ((c : Thread nD τ).loc main_arg0)) shapeCasts_S1024x2400x1_S1024x2400 := by
  show StableHlo.after hostOps0 (fun b => m (c, b)) (Proc.devRef .tc main_v0) = _
  after_results
  rfl

/-- Row b of the reshaped signal is row b of the argument. -/
theorem sigRow_reshape (x : S1024x2400x1.Idx → EReal) (b : Fin 1024) :
    sigRow2 (shapeCast S1024x2400 x shapeCasts_S1024x2400x1_S1024x2400) b = sigRow3 x b := by
  funext n
  unfold sigRow2 sigRow3
  by_cases hn : n < 2400
  · rw [dif_pos hn, dif_pos hn]
    refine shapeCast_apply x shapeCasts_S1024x2400x1_S1024x2400 (ix2 b ⟨n, hn⟩) (ix3 b ⟨n, hn⟩ 0) ?_
    rw [Shape.rowMajor_val_three, Shape.rowMajor_val_two]
    show (b.val * 2400 + n) * 1 + 0 = b.val * 2400 + n
    omega
  · rw [dif_neg hn, dif_neg hn]

/-- The program's result [1024, 2400, 1]: at (b, t, 0) the row formula's first spelling on row b of the arguments. -/
def result (c : Dev nD) : Buf (Elt Ideal) ((c : Thread nD τ).loc main_v2) :=
  fun i => outK (sigRow3 (m ((c : Thread nD τ).loc main_arg0)) (i 0)) (lpcRow (m ((c : Thread nD τ).loc main_arg1)) (i 0)) (i 1).val

/-- The line after the region gives the kernel's array its trailing unit axis: the program's result is `result`. -/
theorem tail_eq (c : Dev nD) : Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = G (V m c main_v0) (V m c main_arg1) :=
    (Pipeline.withArrays_arr spec0 launch0.win.arr_inj c _ _ 2).trans (final m c)
  refine (congrArg (broadcastInDim S1024x2400x1 ![0, 1] bcast_S1024x2400_S1024x2400x1_0_1) hw).trans ?_
  funext i
  obtain ⟨b, t, z, rfl⟩ : ∃ (b : Fin 1024) (t : Fin 2400) (z : Fin 1), i = ix3 b t z := ⟨i 0, i 1, i 2, eq_ix3 i⟩
  refine (broadcastInDim_apply _ bcast_S1024x2400_S1024x2400x1_0_1 _ (ix3 b t z) (ix2 b t) (fun a => by
    match a with
    | ⟨0, _⟩ => show b.val = if (1024 : Nat) = 1 then 0 else b.val; rw [if_neg (by decide)]
    | ⟨1, _⟩ => show t.val = if (2400 : Nat) = 1 then 0 else t.val; rw [if_neg (by decide)])).trans ?_
  show outK (sigRow2 (V m c main_v0 : S1024x2400.Idx → EReal) b) (lpcRow (V m c main_arg1 : S1024x15x16.Idx → EReal) b) t.val
    = outK (sigRow3 (m ((c : Thread nD τ).loc main_arg0)) b) (lpcRow (m ((c : Thread nD τ).loc main_arg1)) b) t.val
  rw [V_main_v0, sigRow_reshape, V_main_arg1]

/-- THE RUN, READ: every weakly fair execution of the program terminates with its result at the row formula of the
    arguments, row by row, and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Whole

end
-- ==== Proof.RefRead.lean ====
/-
  The reference program read at an index.

  The reference computes, for row b of the batch and sample t of the row,

    1. the decode of every code word s of the signal [1024, 2400, 1]:
         sign(s − 128) · (32768/255) · (exp(|s − 128| / 128 · ln256) − 1)      (v13_apply, v14_apply);
    2. the decoded rows [1024, 2400] with 16 columns of zero put in front, [1024, 2416]: column j holds 0 for j < 16
       and the decoded word j − 16 from there on — the padding value is the integer zero converted to a float, the
       extended real 0                                                           (padval, v15_apply);
    3. sixteen shifted views of the padded rows, view k starting at column 16 − k, laid side by side along a third
       axis [1024, 2400, 16]: entry (b, t, k) is the padded row b at column t + 16 − k
                                                                                 (v48_apply, v48_padded);
    4. the coefficients [1024, 15, 16] repeated over the 160 samples of each frame, [1024, 2400, 16]: entry (b, t, k)
       is the coefficient of frame t / 160 and tap k                             (v50_apply);
    5. the sum over the 16 taps of coefficient times shifted sample, started from zero, and its negation: the
       prediction                                                                (v52_apply, v54_apply);
    6. the encode of the prediction v:  clamp(128 + sign v · 128 · log(1 + (255/32768)·|v|) / ln256, 0, 255)
                                                                                 (ref_apply).

  Each lemma states one of these stages at explicit coordinates (b : Fin 1024, t : Fin 2400, k : Fin 16) in the words
  of the shared specification (Cert.MuLaw: decR, padded, sigRow3, lpcRow, firR, outR); the last one, ref_apply, says
  that the reference's result at (b, t, 0) is the specification's second spelling of the row formula, outR.
-/
import proofs.«107889_j26319559589961_2_alg».proof.Proof.Gen.ReferenceIdeal.Read
import proofs.«107889_j26319559589961_2_alg».proof.Proof.Spec
import Idealize.ShloMosaic.Lib.ValueIdx
import Idealize.ShloMosaic.Lib.Pipeline.Value
import Idealize.ShloMosaic.Lib.KernelVsHost

noncomputable section

namespace Cert.ReferenceIdeal.RefValue

open Cert.ReferenceIdeal Cert.ReferenceIdeal.Gen Cert.ReferenceIdeal.Read Cert.MuLaw Idealize.ShloMosaic Idealize.ShloMosaic.ValueIdx

/-- The pad value: the integer zero converted to a float is the extended real 0. -/
theorem padval (i : S_.Idx) : val_main_call0_v0 (F := Ideal) i = 0 := by
  rw [val_main_call0_v0_apply, val_main_c_apply]
  show (((0#32 : BitVec 32).toInt : ℝ) : EReal) = 0
  simp

/-- The decoded signal at (b, n, 0) is the second decode of the code word there. -/
theorem v13_apply (x0 : (⟨S1024x2400x1, .f32⟩ : BufTy).Contents (Elt Ideal)) (b : Fin 1024) (n : Fin 2400) :
    val_main_v13 (F := Ideal) x0 (ix3 b n 0) = decR (x0 (ix3 b n 0)) := by
  rw [val_main_v13_apply, val_main_v5_apply, val_main_v12_apply, val_main_v10_apply, val_main_v9_apply,
    val_main_v7_apply, val_main_v3_apply, val_main_v2_apply, val_main_v1_apply, val_main_v0_apply, val_main_cst_apply,
    val_main_v4_apply, val_main_cst_0_apply, val_main_v6_apply, val_main_cst_1_apply, val_main_v8_apply,
    val_main_cst_2_apply, val_main_v11_apply, val_main_cst_3_apply]
  rfl

/-- The reshape [1024,2400,1] → [1024,2400] at (b, n) reads (b, n, 0): the decoded code word there. -/
theorem v14_apply (x0 : (⟨S1024x2400x1, .f32⟩ : BufTy).Contents (Elt Ideal)) (b : Fin 1024) (n : Fin 2400) :
    val_main_v14 (F := Ideal) x0 (ix2 b n) = decR (x0 (ix3 b n 0)) := by
  rw [val_main_v14_apply]
  have h : idx_main_v14 (ix2 b n) = ix3 b n 0 := funext fun a => Fin.ext (by
    match a with
    | ⟨0, _⟩ => show (b.val * 2400 + n.val) / 2400 = b.val; omega
    | ⟨1, _⟩ => show (b.val * 2400 + n.val) / 1 % 2400 = n.val; omega
    | ⟨2, _⟩ => rfl)
  rw [h, v13_apply]

/-- The pad at (b, j): 0 in the 16 leading columns, the decoded row at column j − 16 after them. -/
theorem v15_apply (x0 : (⟨S1024x2400x1, .f32⟩ : BufTy).Contents (Elt Ideal)) (b : Fin 1024) (j : Fin 2416) :
    val_main_v15 (F := Ideal) x0 (ix2 b j) = padded decR (sigRow3 x0 b) j.val := by
  unfold val_main_v15 padded
  by_cases hj : j.val < 16
  · rw [if_pos hj]
    exact (pad_apply_of_not_inside (![0, 16] : Fin 2 → Nat) ![0, 0] ![0, 0] (val_main_v14 (F := Ideal) x0)
      (val_main_call0_v0 (F := Ideal)) pads_S1024x2400_S1024x2416_000_1600 h_S_ (ix2 b j) (1 : Fin 2)
      (fun h => absurd (show 16 ≤ j.val from h.1) (by omega))).trans (padval _)
  · rw [if_neg hj]
    have hn : j.val - 16 < 2400 := by omega
    rw [pad_apply_of_inside (![0, 16] : Fin 2 → Nat) ![0, 0] ![0, 0] (val_main_v14 (F := Ideal) x0)
      (val_main_call0_v0 (F := Ideal)) pads_S1024x2400_S1024x2416_000_1600 h_S_ (ix2 b j) (ix2 b ⟨j.val - 16, hn⟩)
      (fun a => by
        match a with
        | ⟨0, _⟩ => show b.val = 0 + b.val * (0 + 1); omega
        | ⟨1, _⟩ => show j.val = 16 + (j.val - 16) * (0 + 1); omega)]
    rw [v14_apply, sigRow3, dif_pos hn]

set_option hygiene false in
/-- Piece K of the concatenation, read at (b, t, K): it sits after K pieces of extent one, and is the slice of the
    padded array at column offset 16 − K, read at (b, t). -/
local macro "piece" K:num : tactic => `(tactic|
  (refine (concatenate_apply_piece (t := S1024x2400x16) (2 : Fin 3) _ _ (ix3 b t ⟨$K, by omega⟩) $K
        (by show $K < 16; omega) S1024x2400x1 _ rfl rfl $K (by rfl) (ix3 b t 0)
        (fun c hc => by
          match c with
          | ⟨0, _⟩ => rfl
          | ⟨1, _⟩ => rfl
          | ⟨2, _⟩ => exact absurd rfl hc) (by rfl)).trans ?_
   simp only [val_main_v32_apply, val_main_v33_apply, val_main_v34_apply, val_main_v35_apply, val_main_v36_apply,
     val_main_v37_apply, val_main_v38_apply, val_main_v39_apply, val_main_v40_apply, val_main_v41_apply,
     val_main_v42_apply, val_main_v43_apply, val_main_v44_apply, val_main_v45_apply, val_main_v46_apply,
     val_main_v47_apply, val_main_v16_apply, val_main_v17_apply, val_main_v18_apply, val_main_v19_apply,
     val_main_v20_apply, val_main_v21_apply, val_main_v22_apply, val_main_v23_apply, val_main_v24_apply,
     val_main_v25_apply, val_main_v26_apply, val_main_v27_apply, val_main_v28_apply, val_main_v29_apply,
     val_main_v30_apply, val_main_v31_apply]
   exact congrArg (val_main_v15 (F := Ideal) x0) (funext fun a => Fin.ext (by
     match a with
     | ⟨0, _⟩ => rfl
     | ⟨1, _⟩ => show _ + t.val = t.val + 16 - _; omega))))

set_option maxHeartbeats 1000000 in
/-- The concatenation of the sixteen shifted views at (b, t, k) is the padded array at (b, t + 16 − k). -/
theorem v48_apply (x0 : (⟨S1024x2400x1, .f32⟩ : BufTy).Contents (Elt Ideal)) (b : Fin 1024) (t : Fin 2400) (k : Fin 16) :
    val_main_v48 (F := Ideal) x0 (ix3 b t k)
      = val_main_v15 (F := Ideal) x0 (ix2 b ⟨t.val + 16 - k.val, by omega⟩) := by
  unfold val_main_v48
  match k with
  | ⟨0, _⟩ => piece 0
  | ⟨1, _⟩ => piece 1
  | ⟨2, _⟩ => piece 2
  | ⟨3, _⟩ => piece 3
  | ⟨4, _⟩ => piece 4
  | ⟨5, _⟩ => piece 5
  | ⟨6, _⟩ => piece 6
  | ⟨7, _⟩ => piece 7
  | ⟨8, _⟩ => piece 8
  | ⟨9, _⟩ => piece 9
  | ⟨10, _⟩ => piece 10
  | ⟨11, _⟩ => piece 11
  | ⟨12, _⟩ => piece 12
  | ⟨13, _⟩ => piece 13
  | ⟨14, _⟩ => piece 14
  | ⟨15, _⟩ => piece 15
  | ⟨n + 16, h⟩ => exact absurd h (by omega)

/-- The sixteen shifted views at (b, t, k): position t + 16 − k of the row's decoded signal behind 16 zeros. -/
theorem v48_padded (x0 : (⟨S1024x2400x1, .f32⟩ : BufTy).Contents (Elt Ideal)) (b : Fin 1024) (t : Fin 2400) (k : Fin 16) :
    val_main_v48 (F := Ideal) x0 (ix3 b t k) = padded decR (sigRow3 x0 b) (t.val + 16 - k.val) := by
  rw [v48_apply, v15_apply]

/-- The coefficients repeated over the 160 samples of each frame: at (b, t, k) the coefficient of frame t / 160, tap k. -/
theorem v50_apply (x1 : (⟨S1024x15x16, .f32⟩ : BufTy).Contents (Elt Ideal)) (b : Fin 1024) (t : Fin 2400) (k : Fin 16) :
    val_main_v50 (F := Ideal) x1 (ix3 b t k) = lpcRow x1 b (t.val / 160) k := by
  have hf : t.val / 160 < 15 := by omega
  rw [val_main_v50_apply, val_main_v49_apply, lpcRow, dif_pos hf]
  exact congrArg x1 (funext fun a => Fin.ext (by
    match a with
    | ⟨0, _⟩ => show ((b.val * 2400 + t.val) * 16 + k.val) / 38400 = b.val; omega
    | ⟨1, _⟩ => show ((b.val * 2400 + t.val) * 16 + k.val) / 2560 % 15 = t.val / 160; omega
    | ⟨2, _⟩ => show ((b.val * 2400 + t.val) * 16 + k.val) % 16 = k.val; omega))

/-- The float sum along the taps at (b, t): zero plus the sum over the 16 taps of coefficient times shifted sample. -/
theorem v52_apply (x0 : (⟨S1024x2400x1, .f32⟩ : BufTy).Contents (Elt Ideal)) (x1 : (⟨S1024x15x16, .f32⟩ : BufTy).Contents (Elt Ideal)) (b : Fin 1024) (t : Fin 2400) :
    val_main_v52 (F := Ideal) x0 x1 (ix2 b t)
      = word 0x00000000#32 + ∑ k : Fin 16, lpcRow x1 b (t.val / 160) k * padded decR (sigRow3 x0 b) (t.val + 16 - k.val) := by
  rw [val_main_v52_apply, val_main_cst_4_apply]
  refine congrArg (_ + ·) (Finset.sum_congr rfl fun k _ => ?_)
  have h : idx_main_v52 (ix2 b t) k = ix3 b t k := funext fun a => Fin.ext (by
    match a with
    | ⟨0, _⟩ => rfl
    | ⟨1, _⟩ => rfl
    | ⟨2, _⟩ => rfl)
  rw [h, val_main_v51_apply, v50_apply, v48_padded]
  rfl

/-- The prediction at (b, t, 0): minus (zero plus the sum), the second spelling of the sixteen-tap sum. -/
theorem v54_apply (x0 : (⟨S1024x2400x1, .f32⟩ : BufTy).Contents (Elt Ideal)) (x1 : (⟨S1024x15x16, .f32⟩ : BufTy).Contents (Elt Ideal)) (b : Fin 1024) (t : Fin 2400) :
    val_main_v54 (F := Ideal) x0 x1 (ix3 b t 0)
      = firR (lpcRow x1 b (t.val / 160)) (fun k => padded decR (sigRow3 x0 b) (t.val + 16 - k.val)) := by
  have h : idx_main_v53 (ix3 b t 0) = ix2 b t := funext fun a => Fin.ext (by
    match a with
    | ⟨0, _⟩ => rfl
    | ⟨1, _⟩ => rfl)
  rw [val_main_v54_apply, val_main_v53_apply, h, v52_apply]
  rfl

/-- **The reference's result at (b, t, 0)** is the second spelling of the row formula: the prediction encoded with the
    order's sign, clamped to [0, 255]. -/
theorem ref_apply (x0 : (⟨S1024x2400x1, .f32⟩ : BufTy).Contents (Elt Ideal)) (x1 : (⟨S1024x15x16, .f32⟩ : BufTy).Contents (Elt Ideal)) (b : Fin 1024) (t : Fin 2400) :
    val_main_v67 (F := Ideal) x0 x1 (ix3 b t 0) = outR (sigRow3 x0 b) (lpcRow x1 b) t.val := by
  rw [val_main_v67_apply, val_main_call1_v4_apply, val_main_call1_v3_apply, val_main_cst_10_apply,
    val_main_call1_v2_apply, val_main_call1_v1_apply, val_main_call1_v0_apply, val_main_cst_9_apply,
    val_main_v66_apply, val_main_v65_apply, val_main_cst_8_apply, val_main_v64_apply, val_main_v55_apply,
    val_main_v63_apply, val_main_v61_apply, val_main_v60_apply, val_main_cst_6_apply, val_main_v59_apply,
    val_main_v58_apply, val_main_v57_apply, val_main_cst_5_apply, val_main_v56_apply, val_main_v62_apply,
    val_main_cst_7_apply, v54_apply]
  rfl

end Cert.ReferenceIdeal.RefValue

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibFiniteWord.lean ====
/-
  Float words that denote real numbers.  At the ideal values a float word is read as the extended real its
  IEEE pattern denotes.  Only an all-ones exponent field denotes an infinity (or a not-a-number pattern); every
  other word — a zero, a subnormal, a normal — denotes a real number, a dyadic rational, and when its sign bit is
  clear that real is not negative.  So a literal of a program is a real as soon as its exponent field is seen not
  to be all ones, which is decided on the literal word without computing the value.
-/
import Idealize.ShloMosaic.PureOps.Ideal

noncomputable section

namespace Idealize.ShloMosaic.FiniteWord

open Idealize.ShloMosaic

/-- A word with `e` exponent and `m` significand bits whose exponent field is not all ones and whose sign bit is
    clear denotes a real number that is not negative. -/
theorem ieee_nonneg_real (e m : Nat) {w : Nat} (b : BitVec w)
    (hex : (b.extractLsb' m e).toNat ≠ 2 ^ e - 1) (hs : (b.extractLsb' (e + m) 1 == 1#1) = false) :
    ∃ r : ℝ, 0 ≤ r ∧ Ideal.ieee e m b = (r : EReal) := by
  unfold Ideal.ieee
  simp only [hs, if_neg hex, Bool.false_eq_true, if_false]
  split
  · exact ⟨_, by positivity, rfl⟩
  · exact ⟨_, by positivity, rfl⟩

/-- A word whose exponent field is not all ones denotes a real number, whatever its sign. -/
theorem ieee_real (e m : Nat) {w : Nat} (b : BitVec w) (hex : (b.extractLsb' m e).toNat ≠ 2 ^ e - 1) :
    ∃ r : ℝ, Ideal.ieee e m b = (r : EReal) := by
  unfold Ideal.ieee
  simp only [if_neg hex]
  split
  · exact ⟨_, rfl⟩
  · exact ⟨_, rfl⟩

/-- The single-precision case: exponent field bits 23–30 not all ones, sign bit 31 clear. -/
theorem f32_nonneg_real (b : BitVec 32) (hex : (b.extractLsb' 23 8).toNat ≠ 2 ^ 8 - 1)
    (hs : (b.extractLsb' (8 + 23) 1 == 1#1) = false) : ∃ r : ℝ, 0 ≤ r ∧ Ideal.ofBits .f32 b = (r : EReal) :=
  ieee_nonneg_real 8 23 b hex hs

/-- The single-precision case, any sign. -/
theorem f32_real (b : BitVec 32) (hex : (b.extractLsb' 23 8).toNat ≠ 2 ^ 8 - 1) :
    ∃ r : ℝ, Ideal.ofBits .f32 b = (r : EReal) :=
  ieee_real 8 23 b hex

end Idealize.ShloMosaic.FiniteWord

end
-- ==== Proof.Scalars.lean ====
/-
  The scalar identities behind the two spellings of the mu-law linear-prediction step.

  Everything here is about extended reals; no program is involved.

  1. The sign.  The comparison sign (where |v| > 0: −1 below zero and 1 otherwise; elsewhere v itself, which is
     then zero) is the order's sign function, at both infinities and at every real.  So the two encodes are one
     function.
  2. The words.  The single-precision words 0x43000000, 0x3D317218 and 0x40B17218 denote 128,
     c = 11629080 · 2⁻²⁸ and L = 11629080 · 2⁻²¹, and c · 128 = L.  Hence for a real u
     |u| · c = (|u| / 128) · L, and the two decodes agree at every real code word.
  3. A decoded real code word is a real: sign, absolute value, difference, product, the quotient by 128 and the
     exponential all keep the reals, and every word involved denotes a real.
  4. The sum.  For sixteen real coefficients cₖ and sixteen real samples sₖ,
     0 − c₀s₀ − c₁s₁ − … − c₁₅s₁₅ = −(0 + Σₖ cₖsₖ): both sides are the coercion of the same real number.
  5. Hence, for a real signal row and real coefficients, sample t of the result is the same in both spellings:
     the padded decoded rows agree entry by entry and are real, so the two sums agree, and the encodes agree.
-/
import proofs.«107889_j26319559589961_2_alg».proof.Proof.Spec
import proofs.«107889_j26319559589961_2_alg».proof.Proof.LibReals
import proofs.«107889_j26319559589961_2_alg».proof.Proof.LibFiniteWord

noncomputable section

namespace Cert.MuLaw

open Idealize.ShloMosaic Cert.Reals
open scoped BigOperators

/-! ## The words -/

/-- The word of all zero bits denotes 0. -/
theorem word_zero : word 0x00000000#32 = 0 := by
  simp [Ideal.ofBits, Ideal.ieee]

/-- The word 0x3F800000 denotes 1. -/
theorem word_one : word 0x3F800000#32 = 1 := by
  simp [Ideal.ofBits, Ideal.ieee, -EReal.coe_mul]; norm_num

/-- The word 0xBF800000 denotes −1. -/
theorem word_neg_one : word 0xBF800000#32 = -1 := by
  simp [Ideal.ofBits, Ideal.ieee, -EReal.coe_mul]; norm_num

/-- The word 0x43000000 denotes 128. -/
theorem word_128 : word 0x43000000#32 = ((128 : ℝ) : EReal) := by
  simp [Ideal.ofBits, Ideal.ieee, -EReal.coe_mul]; norm_num

/-- The word 0x3D317218 (ln256/128 in single precision) denotes 11629080 · 2⁻²⁸. -/
theorem word_c : word 0x3D317218#32 = ((11629080 / 2 ^ 28 : ℝ) : EReal) := by
  simp [Ideal.ofBits, Ideal.ieee, -EReal.coe_mul]; norm_num

/-- The word 0x40B17218 (ln256 in single precision) denotes 11629080 · 2⁻²¹. -/
theorem word_L : word 0x40B17218#32 = ((11629080 / 2 ^ 21 : ℝ) : EReal) := by
  simp [Ideal.ofBits, Ideal.ieee, -EReal.coe_mul]; norm_num

/-! ## The absolute value -/

/-- The absolute value of a real is the real absolute value. -/
theorem absE_coe (r : ℝ) : absE (r : EReal) = ((|r| : ℝ) : EReal) := by
  unfold absE
  rw [← EReal.coe_neg, abs_eq_max_neg]
  exact (EReal.coe_strictMono.monotone.map_max).symm

/-- The absolute value of the lower infinity is the upper infinity. -/
theorem absE_bot : absE ⊥ = ⊤ := by
  simp [absE]

/-- The absolute value of the upper infinity is the upper infinity. -/
theorem absE_top : absE ⊤ = ⊤ := by
  simp [absE]

/-- The absolute value of a real is a real. -/
theorem isRealS_absE {x : EReal} (hx : IsRealS x) : IsRealS (absE x) := by
  obtain ⟨r, rfl⟩ := hx
  exact ⟨|r|, absE_coe r⟩

/-! ## The sign -/

/-- A selection on a decided condition is an if-then-else on it. -/
theorem select_ofBool {α : Type} (b : Bool) (x y : α) :
    Scalar.select (BitVec.ofBool b) x y = if b then x else y := by
  cases b <;> simp [Scalar.select]

/-- The comparison sign at a value v: −1 if v < 0 and 1 otherwise where 0 < |v|, and v elsewhere. -/
theorem sgnK_def (v : EReal) :
    sgnK v = if (0 : EReal) < absE v then (if v < 0 then (-1 : EReal) else 1) else v := by
  unfold sgnK
  rw [word_zero, word_one, word_neg_one]
  simp only [Ideal.cmp, select_ofBool, decide_eq_true_eq]

/-- THE SIGN: the comparison sign is the order's sign function, at every extended real. -/
theorem sgnK_eq (v : EReal) : sgnK v = Ideal.sign v := by
  rw [sgnK_def]
  induction v using EReal.rec with
  | bot => simp [absE_bot]
  | top => simp [absE_top]
  | coe r =>
    rw [absE_coe, Ideal.sign_coe]
    rcases lt_trichotomy r 0 with h | h | h
    · have h1 : (0 : EReal) < ((|r| : ℝ) : EReal) := by exact_mod_cast abs_pos.mpr h.ne
      have h2 : ((r : ℝ) : EReal) < 0 := by exact_mod_cast h
      rw [if_pos h1, if_pos h2, sign_neg h]
      simp
    · subst h
      simp
    · have h1 : (0 : EReal) < ((|r| : ℝ) : EReal) := by exact_mod_cast abs_pos.mpr h.ne'
      have h2 : ¬ ((r : ℝ) : EReal) < 0 := by
        rw [not_lt]; exact_mod_cast h.le
      rw [if_pos h1, if_neg h2, sign_pos h]
      simp

/-- The comparison sign and the order's sign are one function. -/
theorem sgnK_eq_fun : sgnK = Ideal.sign := funext sgnK_eq

/-- The two encodes are one function. -/
theorem encK_eq_fun : encK = encR := by
  unfold encK encR
  rw [sgnK_eq_fun]

/-- The order's sign of a real is a real. -/
theorem isRealS_sign {x : EReal} (hx : IsRealS x) : IsRealS (Ideal.sign x) := by
  obtain ⟨r, rfl⟩ := hx
  exact ⟨_, Ideal.sign_coe r⟩

/-- The exponential of a real is a real. -/
theorem isRealS_exp {x : EReal} (hx : IsRealS x) : IsRealS (Ideal.exp x) := by
  obtain ⟨r, rfl⟩ := hx
  exact ⟨_, Ideal.exp_coe r⟩

/-! ## The decode -/

/-- THE EXPONENT: for a real u, |u| · c = (|u| / 128) · L, because c · 128 = L. -/
theorem expArg_eq {u : EReal} (hu : IsRealS u) :
    absE u * word 0x3D317218#32 = Ideal.div (absE u) (word 0x43000000#32) * word 0x40B17218#32 := by
  obtain ⟨r, rfl⟩ := hu
  rw [absE_coe, word_c, word_128, word_L, div_coe_coe _ (by norm_num), ← EReal.coe_mul, ← EReal.coe_mul]
  congr 1
  ring

/-- The two decodes agree at a real code word. -/
theorem dec_eq {s : EReal} (hs : IsRealS s) : decK s = decR s := by
  unfold decK decR
  have hu : IsRealS (s - word 0x43000000#32) := hs.sub ⟨128, word_128⟩
  rw [sgnK_eq, expArg_eq hu]

/-- The word 0x43008081 (32768/255 in single precision) denotes a real. -/
theorem isRealS_word_scale : IsRealS (word 0x43008081#32) :=
  FiniteWord.f32_real _ (by decide)

/-- A decoded real code word is a real. -/
theorem decR_real {s : EReal} (hs : IsRealS s) : IsRealS (decR s) := by
  unfold decR
  have hu : IsRealS (s - word 0x43000000#32) := hs.sub ⟨128, word_128⟩
  have h128 : word 0x43000000#32 ≠ 0 := by
    rw [word_128]; exact_mod_cast (by norm_num : (128 : ℝ) ≠ 0)
  exact ((isRealS_sign hu).mul isRealS_word_scale).mul
    ((isRealS_exp (((isRealS_absE hu).div ⟨128, word_128⟩ h128).mul ⟨_, word_L⟩)).sub ⟨1, word_one⟩)

/-! ## The sum -/

/-- A sum over sixteen indices, written out from the left. -/
theorem sum_univ_sixteen (f : Fin 16 → ℝ) :
    ∑ k, f k = f 0 + f 1 + f 2 + f 3 + f 4 + f 5 + f 6 + f 7 + f 8 + f 9 + f 10 + f 11 + f 12 + f 13 + f 14
      + f 15 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_eight]
  rfl

/-- Over the reals: sixteen successive subtractions from zero give minus (zero plus the sum). -/
theorem fir_real (a b : Fin 16 → ℝ) :
    0 - a 0 * b 0 - a 1 * b 1 - a 2 * b 2 - a 3 * b 3 - a 4 * b 4 - a 5 * b 5 - a 6 * b 6 - a 7 * b 7
        - a 8 * b 8 - a 9 * b 9 - a 10 * b 10 - a 11 * b 11 - a 12 * b 12 - a 13 * b 13 - a 14 * b 14 - a 15 * b 15
      = -(0 + ∑ k : Fin 16, a k * b k) := by
  rw [sum_univ_sixteen]
  ring

/-- THE SUM: for real coefficients and real samples the two spellings of the prediction agree. -/
theorem fir_eq (c s : Fin 16 → EReal) (hc : ∀ k, ∃ r : ℝ, c k = (r : EReal))
    (hs : ∀ k, ∃ r : ℝ, s k = (r : EReal)) : firK c s = firR c s := by
  choose a ha using hc
  choose b hb using hs
  unfold firK firR
  rw [word_zero]
  simp only [ha, hb, ← EReal.coe_mul]
  rw [← coe_fintype_sum, ← EReal.coe_zero]
  simp only [← EReal.coe_sub, ← EReal.coe_add, ← EReal.coe_neg]
  rw [fir_real]

/-! ## One sample of the result -/

/-- The padded decoded rows of the two spellings agree at every position, for a real signal row. -/
theorem padded_eq (sig : ℕ → EReal) (hsig : ∀ n, ∃ r : ℝ, sig n = (r : EReal)) (j : ℕ) :
    padded decK sig j = padded decR sig j := by
  unfold padded
  split
  · rfl
  · exact dec_eq (hsig _)

/-- The padded decoded row of a real signal row is real at every position. -/
theorem padded_real (sig : ℕ → EReal) (hsig : ∀ n, ∃ r : ℝ, sig n = (r : EReal)) (j : ℕ) :
    ∃ r : ℝ, padded decR sig j = (r : EReal) := by
  unfold padded
  split
  · exact ⟨0, rfl⟩
  · exact decR_real (hsig _)

/-- THE RESULT: for a real signal row and real coefficients, sample t is the same in both spellings. -/
theorem out_eq (sig : ℕ → EReal) (lpc : ℕ → Fin 16 → EReal) (hsig : ∀ n, ∃ r : ℝ, sig n = (r : EReal))
    (hlpc : ∀ f k, ∃ r : ℝ, lpc f k = (r : EReal)) (t : ℕ) : outK sig lpc t = outR sig lpc t := by
  unfold outK outR
  have hpad : (fun k : Fin 16 => padded decK sig (t + 16 - k.val))
      = fun k : Fin 16 => padded decR sig (t + 16 - k.val) :=
    funext fun k => padded_eq sig hsig _
  rw [hpad, fir_eq _ _ (hlpc _) (fun k => padded_real sig hsig _), encK_eq_fun]

end Cert.MuLaw

end
-- ==== Proof.Finite.lean ====
/-
  Finite inputs are real inputs.

  The precondition says of each of the two input arrays that every entry's absolute value is below the upper
  infinity: the comparison |x| < +∞, entry by entry, reduced by "and" over the whole array, is 1, and the two
  results are joined by one more "and".  On the extended reals |x| = max x (−x) is the upper infinity at both
  infinities, so an entry whose absolute value is below the upper infinity is neither infinity: it is a real.
  The single-precision word 0x7F800000 denotes the upper infinity.
-/
import proofs.«107889_j26319559589961_2_alg».proof.Pre_finite_inputs
import Idealize.ShloMosaic.Lib.ReduceAll
import Idealize.ShloMosaic.Lib.ValueIdx
import Idealize.ShloMosaic.PureOps.Ideal

noncomputable section

namespace Cert.MuLaw

open Idealize.ShloMosaic Idealize.ShloMosaic.ValueIdx

/-- The word 0x7F800000 denotes the upper infinity. -/
theorem word_inf : Ideal.ofBits .f32 0x7F800000#32 = (⊤ : EReal) := by
  simp [Ideal.ofBits, Ideal.ieee]

/-- An extended real whose absolute value compares below the upper infinity is a real. -/
theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

/-- The shape with no axes has one index. -/
instance subsingleton_scalar_idx : Subsingleton Cert.Pre_finite_inputs.S_.Idx :=
  ⟨fun a b => funext fun d => d.elim0⟩

/-- FINITE INPUTS ARE REAL: under the precondition every entry of both input arrays is a real. -/
theorem real_of_pre [Cert.Pre_finite_inputs.Facts] (x0 : (⟨3, ![1024, 2400, 1]⟩ : Shape).Idx → EReal)
    (x1 : (⟨3, ![1024, 15, 16]⟩ : Shape).Idx → EReal)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  refine ⟨fun i => ?_, fun i => ?_⟩
  · have hi := Host.reduce_andi_all _ _ _ _ _ ha i
    refine real_of_abs_lt_top (x0 i) ?_
    rw [← word_inf]
    exact hi
  · have hi := Host.reduce_andi_all _ _ _ _ _ hb i
    refine real_of_abs_lt_top (x1 i) ?_
    rw [← word_inf]
    exact hi

end Cert.MuLaw

end
-- ==== Proof.Preserves.lean ====
/-
  The ideal program stands for the printed one: the sixteen rewritten sites.

  The printed program builds "one with a value's sign bit" sixteen times — once over a whole row of 2400 samples
  and once in each of the fifteen frames of 160 samples — by masking the value's sign bit and joining it to the
  pattern of 1.0.  The ideal program has in its place a comparison and a select: −1 where the value is below
  zero and 1 otherwise.  The rule's statement says, at the site's shape and at single precision, what each side
  is: over the extended reals the select is −1 below zero and 1 elsewhere, and over the words the masked and
  joined pattern is that of −1.0 when the value's top bit is set and that of 1.0 otherwise.  Each of the sixteen
  conjuncts is this one statement at its shape.
-/
import proofs.«107889_j26319559589961_2_alg».proof.Defs
import Idealize.ShloMosaic.PureOps.IdealRules

noncomputable section

namespace Cert.Proof.Parts

open Idealize.ShloMosaic

/-- The sixteen sites, in order: the row of 2400 samples first, then the fifteen frames of 160 samples; each is
    the rule's statement at that shape and at single precision. -/
theorem preserves : Cert.preserves_Kernel_KernelIdeal :=
  ⟨IdealRules.sign_bit.statement Cert.KernelIdeal.S128x2400 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32,
    IdealRules.sign_bit.statement Cert.KernelIdeal.S128x160 .f32⟩

end Cert.Proof.Parts

end
-- ==== Proof.lean ====
/-
  A mu-law linear-prediction kernel against its reference: the two programs compute the same array over the
  extended reals.

  Each row of the batch holds 2400 mu-law code words and, per frame of 160 samples, 16 prediction coefficients.
  Both programs decode the row, put 16 zeros of history in front, predict sample t as minus the sum over the taps
  k of coefficient (t / 160, k) times the padded row at t + 16 − k, and encode the prediction.  The kernel does it
  on blocks of 128 rows, frame by frame, with sixteen successive subtractions from zero; the reference on the whole
  arrays, with sixteen shifted copies of the padded rows multiplied by the coefficients repeated over each frame's
  samples and summed.

  What is proved here by hand: the kernel's result array is the row formula in the kernel's spelling
  (Proof/FrameBase.lean, FramesA–C.lean, Block.lean, KernelValue.lean), the reference's is the row formula in the
  reference's spelling (Proof/RefRead.lean), and on real inputs the two spellings agree (Proof/Scalars.lean): the
  comparison-and-select sign is the order's sign; the single-precision word for ln256/128 times 128 is the word for
  ln256, so one multiplication is the division by 128 followed by the multiplication; and sixteen successive
  subtractions of reals from zero are minus their sum.  The last needs every product to be a real, which is where
  the precondition enters: a finite input is a real (Proof/Finite.lean), and the decode of a real is a real.  The
  programs' runs themselves — termination, no fault, the argument arrays unchanged — are the generated modules'.
-/
import proofs.«107889_j26319559589961_2_alg».proof.Defs
import proofs.«107889_j26319559589961_2_alg».proof.Proof.Gen.Kernel
import proofs.«107889_j26319559589961_2_alg».proof.Proof.Gen.Kernel.Skeleton
import proofs.«107889_j26319559589961_2_alg».proof.Proof.Gen.Kernel.Launch
import proofs.«107889_j26319559589961_2_alg».proof.Proof.Gen.Kernel.Points
import proofs.«107889_j26319559589961_2_alg».proof.Proof.Gen.Kernel.Frame
import proofs.«107889_j26319559589961_2_alg».proof.Proof.Gen.KernelIdeal
import proofs.«107889_j26319559589961_2_alg».proof.Proof.Gen.KernelIdeal.Skeleton
import proofs.«107889_j26319559589961_2_alg».proof.Proof.Gen.KernelIdeal.Launch
import proofs.«107889_j26319559589961_2_alg».proof.Proof.Gen.KernelIdeal.Points
import proofs.«107889_j26319559589961_2_alg».proof.Proof.Gen.KernelIdeal.Frame
import proofs.«107889_j26319559589961_2_alg».proof.Proof.Gen.ReferenceIdeal
import proofs.«107889_j26319559589961_2_alg».proof.Proof.Gen.Pre_finite_inputs
import proofs.«107889_j26319559589961_2_alg».proof.Proof.Gen.ReferenceIdeal.Run
import proofs.«107889_j26319559589961_2_alg».proof.Proof.Gen.ReferenceIdeal.Read
import proofs.«107889_j26319559589961_2_alg».proof.Proof.KernelValue
import proofs.«107889_j26319559589961_2_alg».proof.Proof.RefRead
import proofs.«107889_j26319559589961_2_alg».proof.Proof.Scalars
import proofs.«107889_j26319559589961_2_alg».proof.Proof.Finite
import proofs.«107889_j26319559589961_2_alg».proof.Proof.Preserves
import Idealize.ShloMosaic.Adequacy
import Idealize.ShloMosaic.Init

noncomputable section

namespace Cert.Proof

open Idealize.ShloMosaic Idealize.ShloMosaic.ValueIdx Idealize.SL.Sem Cert.MuLaw

/-- A row of a real-valued signal array is real-valued. -/
theorem sigRow3_real {R : Nat} (x : (⟨3, ![R, 2400, 1]⟩ : Shape).Idx → EReal) (hx : ∀ i, ∃ r : ℝ, x i = (r : EReal))
    (b : Fin R) (n : ℕ) : ∃ r : ℝ, sigRow3 x b n = (r : EReal) := by
  unfold sigRow3
  by_cases hn : n < 2400
  · rw [dif_pos hn]; exact hx _
  · rw [dif_neg hn]; exact ⟨0, rfl⟩

/-- A row of a real-valued coefficient array is real-valued. -/
theorem lpcRow_real {R : Nat} (x : (⟨3, ![R, 15, 16]⟩ : Shape).Idx → EReal) (hx : ∀ i, ∃ r : ℝ, x i = (r : EReal))
    (b : Fin R) (f : ℕ) (k : Fin 16) : ∃ r : ℝ, lpcRow x b f k = (r : EReal) := by
  unfold lpcRow
  by_cases hf : f < 15
  · rw [dif_pos hf]; exact hx _
  · rw [dif_neg hf]; exact ⟨0, rfl⟩

/-- The printed kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, finite, the idealized kernel ends at the row formula in its own
    spelling and the reference at the row formula in its own; on reals the two are one value at every index. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2]
  obtain ⟨h0, h1⟩ := Cert.MuLaw.real_of_pre _ _ (hpre c)
  funext i
  obtain ⟨b, t, z, rfl⟩ : ∃ (b : Fin 1024) (t : Fin 2400) (z : Fin 1), i = ix3 b t z := ⟨i 0, i 1, i 2, eq_ix3 i⟩
  obtain rfl : z = 0 := Subsingleton.elim _ _
  rw [Cert.ReferenceIdeal.RefValue.ref_apply]
  exact (Cert.MuLaw.out_eq _ _ (sigRow3_real _ h0 b) (lpcRow_real _ h1 b) t.val).symm

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.Parts.preserves, algebraic⟩

end Cert.Proof

end
